-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S1024x512 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096x4096 : Shape := ⟨2, ![4096, 4096]⟩
abbrev S4096 : Shape := ⟨1, ![4096]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x2048x4096 .f32) (main_arg1 : FVec F S4096x4096 .f32) (main_arg2 : FVec F S4096 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x2048x4096 : Shape := ⟨3, ![2, 2048, 4096]⟩
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S2x2048x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨3, ![2, 4, 8], ![false, false, false]⟩

def k0_cond1 (i : grid0.Coords) : BitVec 1 :=
  let arg2 : BitVec 32 := BitVec.ofNat 32 (i 2).val
  let c0_i32 : BitVec 32 := 0#32
  let v16 : BitVec 1 := Scalar.cmpi .eq arg2 c0_i32
  let v17 : BitVec 32 := Scalar.extui v16
  let c0_i32_4 : BitVec 32 := 0#32
  let v18 : BitVec 1 := Scalar.cmpi .ne v17 c0_i32_4
  v18

def k0_cond2 (i : grid0.Coords) : BitVec 1 :=
  let arg2 : BitVec 32 := BitVec.ofNat 32 (i 2).val
  let c0_i32_5 : BitVec 32 := 0#32
  let v19 : BitVec 1 := Scalar.cmpi .sgt arg2 c0_i32_5
  let v20 : BitVec 32 := Scalar.extui v19
  let c0_i32_6 : BitVec 32 := 0#32
  let v21 : BitVec 1 := Scalar.cmpi .ne v20 c0_i32_6
  v21

def k0_cond3 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_7 : BitVec 32 := 0#32
  let v24 : BitVec 1 := Scalar.cmpi .ne v23 c0_i32_7
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S2x2048x4096_S4096x4096 : S2x2048x4096.ShapeCasts S4096x4096
  shapeCasts_S4096_S1x4096 : S4096.ShapeCasts S1x4096
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S4096x4096_S2x2048x4096 : S4096x4096.ShapeCasts S2x2048x4096
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) && !(k0_cond3 i == 1#1) | ⟨_ + 4, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S2x2048x4096, .f32⟩
  | .hbm, ⟨5, _⟩ => ⟨S1x1x4096, .f32⟩
  | .hbm, ⟨6, _⟩ => ⟨S2x2048x4096, .f32⟩
  | .hbm, ⟨7, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  dot_S2x2048x4096_S4096x4096_S2x2048x4096_2_1_01_0_n_n_wf : DotDims.WF S2x2048x4096 S4096x4096 S2x2048x4096 [2] [1] [0, 1] [0] [] []

variable [Facts₀]

def dot_S2x2048x4096_S4096x4096_S2x2048x4096_2_1_01_0_n_n : DotDims S2x2048x4096 S4096x4096 S2x2048x4096 where
  lhsContracting := [2]
  rhsContracting := [1]
  lhsNonContracting := [0, 1]
  rhsNonContracting := [0]
  lhsBatch := []
  rhsBatch := []
  wf := dot_S2x2048x4096_S4096x4096_S2x2048x4096_2_1_01_0_n_n_wf

class Facts : Prop extends Facts₀ where

variable [Facts]
-- ==== Proof.K.Cases.lean ====
/-
  The three branches of the body, decided over the grid. A point `t` of the grid (2, 4, 8) has its position
  along the contracted axis at `t mod 8`: the body stores the partial product at position 0, adds it to the
  resident block at positions 1 … 7, and adds the bias after that at position 7. So one of the first two
  branches is taken at every point, and the output block is never left untouched.
-/
import proofs.«159385_j44349832298616_2_alg».proof.Proof.Gen.Kernel.Frame
import proofs.«159385_j44349832298616_2_alg».proof.Proof.Gen.Kernel.Skeleton
import Idealize.ShloMosaic.Lib.Tactic

set_option maxRecDepth 16384

noncomputable section

namespace Cert.BinLinear.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- The first branch (store the partial product) is taken exactly at the first position along the contracted axis. -/
theorem cond1_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second branch (add the partial product to the block) is taken at every later position. -/
theorem cond2_iff : ∀ t : Fin cfg0.N, k0_cond2 (grid0.coords t) = 1#1 ↔ t.val % 8 ≠ 0 :=
  (by decide +kernel : ∀ t : Fin grid0.N, k0_cond2 (grid0.coords t) = 1#1 ↔ t.val % 8 ≠ 0)

/-- The third branch (add the bias) is taken exactly at the last position. -/
theorem cond3_iff : ∀ t : Fin cfg0.N, k0_cond3 (grid0.coords t) = 1#1 ↔ t.val % 8 = 7 :=
  (by decide +kernel : ∀ t : Fin grid0.N, k0_cond3 (grid0.coords t) = 1#1 ↔ t.val % 8 = 7)

/-- At every grid coordinate one of the first two branches stores into the output block. -/
theorem live3 : ∀ i : grid0.Coords, cfg0.idle 3 i = false :=
  (by decide +kernel : ∀ i : grid0.Coords, idle0 3 i = false)

/-- The windows' current staging memrefs at a point, as the pipeline passes them to the body, and their wholeness. -/
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .f32 := win0_3.stage (cfg0.slots t 3)
abbrev hs3 (t : Fin cfg0.N) : (ms3 t).IsWhole := hstage0_3 ((cfg0.slots t 3).cast nbuf0_3)

/-- One staging buffer of the output window, through which its contents are stated. -/
abbrev VO : View sig .tc .vmem S2048x1024 .f32 := (Memref.whole cc0_stg3_0 : Memref sig .tc .vmem S2048x1024 .f32).view

end Cert.BinLinear.K

end
-- ==== Proof.K.RunA.lean ====
/-
  The body at the first position along the contracted axis. It loads the activations' block and the weight's
  block and stores their partial product over whatever the output block held; the second and third branches are
  not taken there. On whole staging buffers holding the three input blocks, the body ends with the input blocks as
  they were and the output block at its stored pieces (listed last first).
-/
import proofs.«159385_j44349832298616_2_alg».proof.Proof.K.Cases

set_option maxRecDepth 16384

noncomputable section

namespace Cert.BinLinear.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ)

set_option maxHeartbeats 1000000 in
/-- The pieces the body leaves in the output block in this case, with the body's triple. -/
noncomputable def runA (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : k0_cond1 i = 1#1) (hc2 : ¬k0_cond2 i = 1#1) (hc3 : ¬k0_cond3 i = 1#1)
    (x0 : Vec F S2048x512 .f32) (x1 : Vec F S1024x512 .f32) (x2 : Vec F S1x1024 .f32) :
    { L : List (View.Piece (Elt F) S2048x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ (∃ d, owns (c : Thread nD τ) a6 fullShare d)
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L)) -∗ K ⟨⟩))
          ⊢ wp frame (wpE (defs₀ (F := F)) Variants.none c none) E (cc0__bin_matmul_kernel i a3 h3 a4 h4 a5 h5 a6 h6) K } := by
  refine ⟨?_, fun E K => ?run⟩
  case run =>
    simp only [cc0__bin_matmul_kernel_eq_skeleton]; unfold cc0__bin_matmul_kernel_skel
    unfold owns
    iintro ⟨⟨%f0, %hf0, H0⟩, ⟨%f1, %hf1, H1⟩, ⟨%f2, %hf2, H2⟩, ⟨%d3, %f3, -, H3⟩, Hk⟩
    obtain rfl := h3.eq_unread hf0; obtain rfl := h4.eq_unread hf1; obtain rfl := h5.eq_unread hf2
    sl_exec (disch := first | exact hc1 | exact hc2 | exact hc3)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    iexists _; iexact H3

end Cert.BinLinear.K

end
-- ==== Proof.K.RunB.lean ====
/-
  The body at a middle position along the contracted axis. The first branch is not taken; the second loads the
  output block's running contents and stores them back with the partial product of the two input blocks added; the
  third is not taken. On whole staging buffers holding the three input blocks and the output block's running
  contents, the body ends with the input blocks as they were and the output block at its stored pieces (listed
  last first).
-/
import proofs.«159385_j44349832298616_2_alg».proof.Proof.K.RunA

set_option maxRecDepth 16384

noncomputable section

namespace Cert.BinLinear.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ)

set_option maxHeartbeats 1000000 in
/-- The pieces the body leaves in the output block in this case, with the body's triple. -/
noncomputable def runB (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : ¬k0_cond3 i = 1#1)
    (x0 : Vec F S2048x512 .f32) (x1 : Vec F S1024x512 .f32) (x2 : Vec F S1x1024 .f32) (xo : Vec F S2048x1024 .f32) :
    { L : List (View.Piece (Elt F) S2048x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ owns (c : Thread nD τ) a6 fullShare xo
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L)) -∗ K ⟨⟩))
          ⊢ wp frame (wpE (defs₀ (F := F)) Variants.none c none) E (cc0__bin_matmul_kernel i a3 h3 a4 h4 a5 h5 a6 h6) K } := by
  refine ⟨?_, fun E K => ?run⟩
  case run =>
    simp only [cc0__bin_matmul_kernel_eq_skeleton]; unfold cc0__bin_matmul_kernel_skel
    unfold owns
    iintro ⟨⟨%f0, %hf0, H0⟩, ⟨%f1, %hf1, H1⟩, ⟨%f2, %hf2, H2⟩, ⟨%f3, %hf3, H3⟩, Hk⟩
    obtain rfl := h3.eq_unread hf0; obtain rfl := h4.eq_unread hf1; obtain rfl := h5.eq_unread hf2; obtain rfl := h6.eq_unread hf3
    sl_exec (disch := first | exact hc1 | exact hc2 | exact hc3)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    iexists _; iexact H3

end Cert.BinLinear.K

end
-- ==== Proof.K.RunC.lean ====
/-
  The body at the last position along the contracted axis. The second branch adds the partial product to the output
  block's running contents as at a middle position; the third then loads the block back — it reads what the second
  branch just stored — and stores it with the bias row added to every row. On whole staging buffers holding the
  three input blocks and the output block's running contents, the body ends with the input blocks as they were and
  the output block at its stored pieces (listed last first: two whole-block stores).
-/
import proofs.«159385_j44349832298616_2_alg».proof.Proof.K.RunB

set_option maxRecDepth 16384

noncomputable section

namespace Cert.BinLinear.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ)

set_option maxHeartbeats 1000000 in
/-- The pieces the body leaves in the output block in this case, with the body's triple. -/
noncomputable def runC (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : k0_cond3 i = 1#1)
    (x0 : Vec F S2048x512 .f32) (x1 : Vec F S1024x512 .f32) (x2 : Vec F S1x1024 .f32) (xo : Vec F S2048x1024 .f32) :
    { L : List (View.Piece (Elt F) S2048x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ owns (c : Thread nD τ) a6 fullShare xo
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L)) -∗ K ⟨⟩))
          ⊢ wp frame (wpE (defs₀ (F := F)) Variants.none c none) E (cc0__bin_matmul_kernel i a3 h3 a4 h4 a5 h5 a6 h6) K } := by
  refine ⟨?_, fun E K => ?run⟩
  case run =>
    simp only [cc0__bin_matmul_kernel_eq_skeleton]; unfold cc0__bin_matmul_kernel_skel
    unfold owns
    iintro ⟨⟨%f0, %hf0, H0⟩, ⟨%f1, %hf1, H1⟩, ⟨%f2, %hf2, H2⟩, ⟨%f3, %hf3, H3⟩, Hk⟩
    obtain rfl := h3.eq_unread hf0; obtain rfl := h4.eq_unread hf1; obtain rfl := h5.eq_unread hf2; obtain rfl := h6.eq_unread hf3
    sl_exec (disch := first | exact hc1 | exact hc2 | exact hc3)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    iexists _; iexact H3

end Cert.BinLinear.K

end
-- ==== Proof.K.Body.lean ====
/-
  The proof data of the pipeline and the body obligation.
  The output block is an accumulator: along the contracted axis (positions 0 … 7 of each run of eight consecutive
  points) the block stays in its staging buffer — it is written back only after position 7 — so what it holds
  after a point is defined by recursion on the point: at position 0 what the first case leaves, at a later
  position what the middle or the last case leaves over the contents the point before left.
  Each input's staging buffer holds its block of the array as the region found it.
-/
import proofs.«159385_j44349832298616_2_alg».proof.Proof.K.RunC

set_option maxRecDepth 16384

noncomputable section

namespace Cert.BinLinear.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The pieces of this case cover the output block (each store writes the whole block). -/
theorem coverA (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : k0_cond1 i = 1#1) (hc2 : ¬k0_cond2 i = 1#1) (hc3 : ¬k0_cond3 i = 1#1) (x0 : Vec F S2048x512 .f32) (x1 : Vec F S1024x512 .f32) (x2 : Vec F S1x1024 .f32) (y : S2048x1024.Idx) :
    ∃ pc ∈ (runA c i a3 h3 a4 h4 a5 h5 a6 h6 hc1 hc2 hc3 x0 x1 x2).1, y ∈ pc.1.set :=
  View.cover_of_tiledL (runA c i a3 h3 a4 h4 a5 h5 a6 h6 hc1 hc2 hc3 x0 x1 x2).1 S2048x1024.size (by sl_kernel_rfl) y

/-- What this case leaves in the output block: its pieces read back. -/
def outA (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : k0_cond1 i = 1#1) (hc2 : ¬k0_cond2 i = 1#1) (hc3 : ¬k0_cond3 i = 1#1) (x0 : Vec F S2048x512 .f32) (x1 : Vec F S1024x512 .f32) (x2 : Vec F S1x1024 .f32) : Vec F S2048x1024 .f32 :=
  VO.read (Elt F) (VO.writes (Elt F) VO.junk (runA c i a3 h3 a4 h4 a5 h5 a6 h6 hc1 hc2 hc3 x0 x1 x2).1)

/-- The pieces of this case cover the output block (each store writes the whole block). -/
theorem coverB (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : ¬k0_cond3 i = 1#1) (x0 : Vec F S2048x512 .f32) (x1 : Vec F S1024x512 .f32) (x2 : Vec F S1x1024 .f32) (xo : Vec F S2048x1024 .f32) (y : S2048x1024.Idx) :
    ∃ pc ∈ (runB c i a3 h3 a4 h4 a5 h5 a6 h6 hc1 hc2 hc3 x0 x1 x2 xo).1, y ∈ pc.1.set :=
  View.cover_of_tiledL (runB c i a3 h3 a4 h4 a5 h5 a6 h6 hc1 hc2 hc3 x0 x1 x2 xo).1 S2048x1024.size (by sl_kernel_rfl) y

/-- What this case leaves in the output block: its pieces read back. -/
def outB (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : ¬k0_cond3 i = 1#1) (x0 : Vec F S2048x512 .f32) (x1 : Vec F S1024x512 .f32) (x2 : Vec F S1x1024 .f32) (xo : Vec F S2048x1024 .f32) : Vec F S2048x1024 .f32 :=
  VO.read (Elt F) (VO.writes (Elt F) VO.junk (runB c i a3 h3 a4 h4 a5 h5 a6 h6 hc1 hc2 hc3 x0 x1 x2 xo).1)

/-- The pieces of this case cover the output block (each store writes the whole block). -/
theorem coverC (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : k0_cond3 i = 1#1) (x0 : Vec F S2048x512 .f32) (x1 : Vec F S1024x512 .f32) (x2 : Vec F S1x1024 .f32) (xo : Vec F S2048x1024 .f32) (y : S2048x1024.Idx) :
    ∃ pc ∈ (runC c i a3 h3 a4 h4 a5 h5 a6 h6 hc1 hc2 hc3 x0 x1 x2 xo).1, y ∈ pc.1.set :=
  View.cover_of_tiledL (runC c i a3 h3 a4 h4 a5 h5 a6 h6 hc1 hc2 hc3 x0 x1 x2 xo).1 S2048x1024.size (by sl_kernel_rfl) y

/-- What this case leaves in the output block: its pieces read back. -/
def outC (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : k0_cond3 i = 1#1) (x0 : Vec F S2048x512 .f32) (x1 : Vec F S1024x512 .f32) (x2 : Vec F S1x1024 .f32) (xo : Vec F S2048x1024 .f32) : Vec F S2048x1024 .f32 :=
  VO.read (Elt F) (VO.writes (Elt F) VO.junk (runC c i a3 h3 a4 h4 a5 h5 a6 h6 hc1 hc2 hc3 x0 x1 x2 xo).1)

/-! ## Which branches a point takes, from its position along the contracted axis -/

theorem c1_of0 (t : Fin cfg0.N) (h0 : t.val % 8 = 0) : k0_cond1 (grid0.coords t) = 1#1 := (cond1_iff t).mpr h0
theorem nc2_of0 (t : Fin cfg0.N) (h0 : t.val % 8 = 0) : ¬k0_cond2 (grid0.coords t) = 1#1 := fun h => (cond2_iff t).mp h h0
theorem nc3_of0 (t : Fin cfg0.N) (h0 : t.val % 8 = 0) : ¬k0_cond3 (grid0.coords t) = 1#1 := fun h => by
  have := (cond3_iff t).mp h; omega
theorem nc1_of (t : Fin cfg0.N) (h0 : ¬t.val % 8 = 0) : ¬k0_cond1 (grid0.coords t) = 1#1 := fun h => h0 ((cond1_iff t).mp h)
theorem c2_of (t : Fin cfg0.N) (h0 : ¬t.val % 8 = 0) : k0_cond2 (grid0.coords t) = 1#1 := (cond2_iff t).mpr h0
theorem nc3_of (t : Fin cfg0.N) (h7 : ¬t.val % 8 = 7) : ¬k0_cond3 (grid0.coords t) = 1#1 := fun h => h7 ((cond3_iff t).mp h)
theorem nc1_of7 (t : Fin cfg0.N) (h7 : t.val % 8 = 7) : ¬k0_cond1 (grid0.coords t) = 1#1 := fun h => by
  have := (cond1_iff t).mp h; omega
theorem c2_of7 (t : Fin cfg0.N) (h7 : t.val % 8 = 7) : k0_cond2 (grid0.coords t) = 1#1 := (cond2_iff t).mpr (by omega)
theorem c3_of7 (t : Fin cfg0.N) (h7 : t.val % 8 = 7) : k0_cond3 (grid0.coords t) = 1#1 := (cond3_iff t).mpr h7

/-! ## What the output block holds after each point -/

/-- The accumulation: the output block after the body at position `n` of the grid's order. -/
def outsAt (c : Dev nD) : (n : ℕ) → n < cfg0.N → Vec F S2048x1024 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (c1_of0 ⟨0, hn⟩ (Nat.zero_mod _)) (nc2_of0 ⟨0, hn⟩ (Nat.zero_mod _)) (nc3_of0 ⟨0, hn⟩ (Nat.zero_mod _)) (iblk m c 0 ⟨0, hn⟩) (iblk m c 1 ⟨0, hn⟩) (iblk m c 2 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (c1_of0 ⟨n + 1, hn⟩ h0) (nc2_of0 ⟨n + 1, hn⟩ h0) (nc3_of0 ⟨n + 1, hn⟩ h0) (iblk m c 0 ⟨n + 1, hn⟩) (iblk m c 1 ⟨n + 1, hn⟩) (iblk m c 2 ⟨n + 1, hn⟩)
    else if h7 : (n + 1) % 8 = 7 then
      outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (nc1_of7 ⟨n + 1, hn⟩ h7) (c2_of7 ⟨n + 1, hn⟩ h7) (c3_of7 ⟨n + 1, hn⟩ h7) (iblk m c 0 ⟨n + 1, hn⟩) (iblk m c 1 ⟨n + 1, hn⟩) (iblk m c 2 ⟨n + 1, hn⟩) (outsAt c n (Nat.lt_of_succ_lt hn))
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (nc1_of ⟨n + 1, hn⟩ h0) (c2_of ⟨n + 1, hn⟩ h0) (nc3_of ⟨n + 1, hn⟩ h7) (iblk m c 0 ⟨n + 1, hn⟩) (iblk m c 1 ⟨n + 1, hn⟩) (iblk m c 2 ⟨n + 1, hn⟩) (outsAt c n (Nat.lt_of_succ_lt hn))

/-- At the first position of a run: the partial product alone. -/
theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) (c1_of0 t h0) (nc2_of0 t h0) (nc3_of0 t h0) (iblk m c 0 t) (iblk m c 1 t) (iblk m c 2 t) := by
  obtain ⟨n, hn⟩ := t
  cases n with
  | zero => exact rfl
  | succ n => exact (dif_pos h0).trans rfl

/-- At a middle position: the middle case over what the point before left. -/
theorem outsAt_B (c : Dev nD) (t : Fin cfg0.N) (h0 : ¬t.val % 8 = 0) (h7 : ¬t.val % 8 = 7) :
    outsAt m c t.val t.isLt = outB c (grid0.coords t) (ms0 t) (hs0 t) (ms1 t) (hs1 t) (ms2 t) (hs2 t) (ms3 t) (hs3 t) (nc1_of t h0) (c2_of t h0) (nc3_of t h7) (iblk m c 0 t) (iblk m c 1 t) (iblk m c 2 t) (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

/-- At the last position: the last case over what the point before left. -/
theorem outsAt_C (c : Dev nD) (t : Fin cfg0.N) (h7 : t.val % 8 = 7) :
    outsAt m c t.val t.isLt = outC c (grid0.coords t) (ms0 t) (hs0 t) (ms1 t) (hs1 t) (ms2 t) (hs2 t) (ms3 t) (hs3 t) (nc1_of7 t h7) (c2_of7 t h7) (c3_of7 t h7) (iblk m c 0 t) (iblk m c 1 t) (iblk m c 2 t) (outsAt m c (t.val - 1) (Nat.lt_of_le_of_lt (Nat.sub_le _ _) t.isLt)) := by
  obtain ⟨n, hn⟩ := t
  cases n with
  | zero => exact absurd ((Nat.zero_mod 8).symm.trans h7) (by decide)
  | succ n => exact (dif_neg (fun h => by have h7' : (n + 1) % 8 = 7 := h7; omega)).trans ((dif_pos h7).trans rfl)

/-! ## The proof data -/

/-- The arrays as the region finds them; after the body each input's buffer at its block and the output's at
    `outsAt`; the invariant the scoped rest and the random-number register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outsAt m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Past the first position of a run the output's staging buffer holds what the body left at the point before:
    the block is written back only after the last position, and the window is never idle. -/
theorem before_3 (c : Dev nD) (t : Fin cfg0.N) (h0 : ¬t.val % 8 = 0) (d) :
    (dats m 0 c).before 3 t d = (outsAt m c (t.val - 1) (Nat.lt_of_le_of_lt (Nat.sub_le _ _) t.isLt)) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live3 (fun _ _ => rfl)]
  dsimp only [dats]

/-! ## The body obligation -/

/-- At every grid coordinate one of the first two branches stores into the output block: the window's idle flag is
    false everywhere. -/
theorem live3' : ∀ i : grid0.Coords, idle0 3 i = false := live3

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' memrefs hold their blocks; the position along the contracted axis says which
    case the point is in; past position 0 the output's buffer holds what the point before left; so that case's run
    applies, and the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  have hN : t.val < 64 := lt_of_lt_of_eq t.isLt (show cfg0.N = 64 from N_0)
  by_cases h0 : t.val % 8 = 0
  · rw [outsAt_A m c t h0]
    unfold outA
    iintro ⟨HΦ, Ho, ⟨%d0, H0⟩, ⟨%d1, H1⟩, ⟨%d2, H2⟩, ⟨%d3, H3⟩⟩
    iapply ((runA c (grid0.coords t) _ _ _ _ _ _ _ _ (c1_of0 t h0) (nc2_of0 t h0) (nc3_of0 t h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _)
  · simp only [before_3 m c t h0]
    by_cases h7 : t.val % 8 = 7
    · rw [outsAt_C m c t h7]
      unfold outC
      iintro ⟨HΦ, Ho, ⟨%d0, H0⟩, ⟨%d1, H1⟩, ⟨%d2, H2⟩, ⟨%d3, H3⟩⟩
      iapply ((runC c (grid0.coords t) _ _ _ _ _ _ _ _ (nc1_of7 t h7) (c2_of7 t h7) (c3_of7 t h7) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _)
    · rw [outsAt_B m c t h0 h7]
      unfold outB
      iintro ⟨HΦ, Ho, ⟨%d0, H0⟩, ⟨%d1, H1⟩, ⟨%d2, H2⟩, ⟨%d3, H3⟩⟩
      iapply ((runB c (grid0.coords t) _ _ _ _ _ _ _ _ (nc1_of t h0) (c2_of t h0) (nc3_of t h7) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB c _ _ _ _ _ _ _ _ _ _ _ _ _ _ _ _)

set_option maxHeartbeats 4000000 in
/-- The body obligation, at every point of the grid. -/
theorem body_obligation (c : Dev nD) : BodyObligation (dats (F := F) m 0 c) (defs₀ (F := F)) Variants.none () Set.univ := fun t => by
  rw [bigSep_W0, bigSep_W0]
  simp only [live3' (grid0.coords t)]
  exact sound_body m c t

/-! ## The run and the frame -/

set_option maxHeartbeats 4000000 in
set_option backward.isDefEq.respectTransparency.types false in
/-- From any memory with zero counters every weakly fair execution of the program terminates, and every final state
    has every array of the pipeline at what the proof data gives and every other unscoped buffer as the lines after
    the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its three argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.BinLinear.K

end
-- ==== Proof.KI.Cases.lean ====
/-
  The three branches of the body, decided over the grid. A point `t` of the grid (2, 4, 8) has its position
  along the contracted axis at `t mod 8`: the body stores the partial product at position 0, adds it to the
  resident block at positions 1 … 7, and adds the bias after that at position 7. So one of the first two
  branches is taken at every point, and the output block is never left untouched.
-/
import proofs.«159385_j44349832298616_2_alg».proof.Proof.Gen.KernelIdeal.Frame
import proofs.«159385_j44349832298616_2_alg».proof.Proof.Gen.KernelIdeal.Skeleton
import Idealize.ShloMosaic.Lib.Tactic

set_option maxRecDepth 16384

noncomputable section

namespace Cert.BinLinear.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (store the partial product) is taken exactly at the first position along the contracted axis. -/
theorem cond1_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The second branch (add the partial product to the block) is taken at every later position. -/
theorem cond2_iff : ∀ t : Fin cfg0.N, k0_cond2 (grid0.coords t) = 1#1 ↔ t.val % 8 ≠ 0 :=
  (by decide +kernel : ∀ t : Fin grid0.N, k0_cond2 (grid0.coords t) = 1#1 ↔ t.val % 8 ≠ 0)

/-- The third branch (add the bias) is taken exactly at the last position. -/
theorem cond3_iff : ∀ t : Fin cfg0.N, k0_cond3 (grid0.coords t) = 1#1 ↔ t.val % 8 = 7 :=
  (by decide +kernel : ∀ t : Fin grid0.N, k0_cond3 (grid0.coords t) = 1#1 ↔ t.val % 8 = 7)

/-- At every grid coordinate one of the first two branches stores into the output block. -/
theorem live3 : ∀ i : grid0.Coords, cfg0.idle 3 i = false :=
  (by decide +kernel : ∀ i : grid0.Coords, idle0 3 i = false)

/-- The windows' current staging memrefs at a point, as the pipeline passes them to the body, and their wholeness. -/
abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x1024 .f32 := win0_3.stage (cfg0.slots t 3)
abbrev hs3 (t : Fin cfg0.N) : (ms3 t).IsWhole := hstage0_3 ((cfg0.slots t 3).cast nbuf0_3)

/-- One staging buffer of the output window, through which its contents are stated. -/
abbrev VO : View sig .tc .vmem S2048x1024 .f32 := (Memref.whole cc0_stg3_0 : Memref sig .tc .vmem S2048x1024 .f32).view

end Cert.BinLinear.KI

end
-- ==== Proof.KI.RunA.lean ====
/-
  The body at the first position along the contracted axis. It loads the activations' block and the weight's
  block and stores their partial product over whatever the output block held; the second and third branches are
  not taken there. On whole staging buffers holding the three input blocks, the body ends with the input blocks as
  they were and the output block at its stored pieces (listed last first).
-/
import proofs.«159385_j44349832298616_2_alg».proof.Proof.KI.Cases

set_option maxRecDepth 16384

noncomputable section

namespace Cert.BinLinear.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The pieces the body leaves in the output block in this case, with the body's triple. -/
noncomputable def runA (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : k0_cond1 i = 1#1) (hc2 : ¬k0_cond2 i = 1#1) (hc3 : ¬k0_cond3 i = 1#1)
    (x0 : Vec F S2048x512 .f32) (x1 : Vec F S1024x512 .f32) (x2 : Vec F S1x1024 .f32) :
    { L : List (View.Piece (Elt F) S2048x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ (∃ d, owns (c : Thread nD τ) a6 fullShare d)
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L)) -∗ K ⟨⟩))
          ⊢ wp frame (wpE (defs₀ (F := F)) Variants.none c none) E (cc0__bin_matmul_kernel i a3 h3 a4 h4 a5 h5 a6 h6) K } := by
  refine ⟨?_, fun E K => ?run⟩
  case run =>
    simp only [cc0__bin_matmul_kernel_eq_skeleton]; unfold cc0__bin_matmul_kernel_skel
    unfold owns
    iintro ⟨⟨%f0, %hf0, H0⟩, ⟨%f1, %hf1, H1⟩, ⟨%f2, %hf2, H2⟩, ⟨%d3, %f3, -, H3⟩, Hk⟩
    obtain rfl := h3.eq_unread hf0; obtain rfl := h4.eq_unread hf1; obtain rfl := h5.eq_unread hf2
    sl_exec (disch := first | exact hc1 | exact hc2 | exact hc3)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    iexists _; iexact H3

end Cert.BinLinear.KI

end
-- ==== Proof.KI.RunB.lean ====
/-
  The body at a middle position along the contracted axis. The first branch is not taken; the second loads the
  output block's running contents and stores them back with the partial product of the two input blocks added; the
  third is not taken. On whole staging buffers holding the three input blocks and the output block's running
  contents, the body ends with the input blocks as they were and the output block at its stored pieces (listed
  last first).
-/
import proofs.«159385_j44349832298616_2_alg».proof.Proof.KI.RunA

set_option maxRecDepth 16384

noncomputable section

namespace Cert.BinLinear.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The pieces the body leaves in the output block in this case, with the body's triple. -/
noncomputable def runB (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : ¬k0_cond3 i = 1#1)
    (x0 : Vec F S2048x512 .f32) (x1 : Vec F S1024x512 .f32) (x2 : Vec F S1x1024 .f32) (xo : Vec F S2048x1024 .f32) :
    { L : List (View.Piece (Elt F) S2048x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ owns (c : Thread nD τ) a6 fullShare xo
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L)) -∗ K ⟨⟩))
          ⊢ wp frame (wpE (defs₀ (F := F)) Variants.none c none) E (cc0__bin_matmul_kernel i a3 h3 a4 h4 a5 h5 a6 h6) K } := by
  refine ⟨?_, fun E K => ?run⟩
  case run =>
    simp only [cc0__bin_matmul_kernel_eq_skeleton]; unfold cc0__bin_matmul_kernel_skel
    unfold owns
    iintro ⟨⟨%f0, %hf0, H0⟩, ⟨%f1, %hf1, H1⟩, ⟨%f2, %hf2, H2⟩, ⟨%f3, %hf3, H3⟩, Hk⟩
    obtain rfl := h3.eq_unread hf0; obtain rfl := h4.eq_unread hf1; obtain rfl := h5.eq_unread hf2; obtain rfl := h6.eq_unread hf3
    sl_exec (disch := first | exact hc1 | exact hc2 | exact hc3)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    iexists _; iexact H3

end Cert.BinLinear.KI

end
-- ==== Proof.KI.RunC.lean ====
/-
  The body at the last position along the contracted axis. The second branch adds the partial product to the output
  block's running contents as at a middle position; the third then loads the block back — it reads what the second
  branch just stored — and stores it with the bias row added to every row. On whole staging buffers holding the
  three input blocks and the output block's running contents, the body ends with the input blocks as they were and
  the output block at its stored pieces (listed last first: two whole-block stores).
-/
import proofs.«159385_j44349832298616_2_alg».proof.Proof.KI.RunB

set_option maxRecDepth 16384

noncomputable section

namespace Cert.BinLinear.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The pieces the body leaves in the output block in this case, with the body's triple. -/
noncomputable def runC (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : k0_cond3 i = 1#1)
    (x0 : Vec F S2048x512 .f32) (x1 : Vec F S1024x512 .f32) (x2 : Vec F S1x1024 .f32) (xo : Vec F S2048x1024 .f32) :
    { L : List (View.Piece (Elt F) S2048x1024 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ owns (c : Thread nD τ) a6 fullShare xo
            ∗ (iprop(owns (c : Thread nD τ) a3 fullShare x0 ∗ owns (c : Thread nD τ) a4 fullShare x1 ∗ owns (c : Thread nD τ) a5 fullShare x2
                ∗ (∃ f, a6.view.loc (c : Thread nD τ) ↦[a6.view.set]{fullShare} a6.view.writes (Elt F) f L)) -∗ K ⟨⟩))
          ⊢ wp frame (wpE (defs₀ (F := F)) Variants.none c none) E (cc0__bin_matmul_kernel i a3 h3 a4 h4 a5 h5 a6 h6) K } := by
  refine ⟨?_, fun E K => ?run⟩
  case run =>
    simp only [cc0__bin_matmul_kernel_eq_skeleton]; unfold cc0__bin_matmul_kernel_skel
    unfold owns
    iintro ⟨⟨%f0, %hf0, H0⟩, ⟨%f1, %hf1, H1⟩, ⟨%f2, %hf2, H2⟩, ⟨%f3, %hf3, H3⟩, Hk⟩
    obtain rfl := h3.eq_unread hf0; obtain rfl := h4.eq_unread hf1; obtain rfl := h5.eq_unread hf2; obtain rfl := h6.eq_unread hf3
    sl_exec (disch := first | exact hc1 | exact hc2 | exact hc3)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    iexists _; iexact H3

end Cert.BinLinear.KI

end
-- ==== Proof.KI.Body.lean ====
/-
  The proof data of the pipeline and the body obligation.
  The output block is an accumulator: along the contracted axis (positions 0 … 7 of each run of eight consecutive
  points) the block stays in its staging buffer — it is written back only after position 7 — so what it holds
  after a point is defined by recursion on the point: at position 0 what the first case leaves, at a later
  position what the middle or the last case leaves over the contents the point before left.
  Each input's staging buffer holds its block of the array as the region found it.
-/
import proofs.«159385_j44349832298616_2_alg».proof.Proof.KI.RunC

set_option maxRecDepth 16384

noncomputable section

namespace Cert.BinLinear.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces of this case cover the output block (each store writes the whole block). -/
theorem coverA (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : k0_cond1 i = 1#1) (hc2 : ¬k0_cond2 i = 1#1) (hc3 : ¬k0_cond3 i = 1#1) (x0 : Vec F S2048x512 .f32) (x1 : Vec F S1024x512 .f32) (x2 : Vec F S1x1024 .f32) (y : S2048x1024.Idx) :
    ∃ pc ∈ (runA c i a3 h3 a4 h4 a5 h5 a6 h6 hc1 hc2 hc3 x0 x1 x2).1, y ∈ pc.1.set :=
  View.cover_of_tiledL (runA c i a3 h3 a4 h4 a5 h5 a6 h6 hc1 hc2 hc3 x0 x1 x2).1 S2048x1024.size (by sl_kernel_rfl) y

/-- What this case leaves in the output block: its pieces read back. -/
def outA (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : k0_cond1 i = 1#1) (hc2 : ¬k0_cond2 i = 1#1) (hc3 : ¬k0_cond3 i = 1#1) (x0 : Vec F S2048x512 .f32) (x1 : Vec F S1024x512 .f32) (x2 : Vec F S1x1024 .f32) : Vec F S2048x1024 .f32 :=
  VO.read (Elt F) (VO.writes (Elt F) VO.junk (runA c i a3 h3 a4 h4 a5 h5 a6 h6 hc1 hc2 hc3 x0 x1 x2).1)

/-- The pieces of this case cover the output block (each store writes the whole block). -/
theorem coverB (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : ¬k0_cond3 i = 1#1) (x0 : Vec F S2048x512 .f32) (x1 : Vec F S1024x512 .f32) (x2 : Vec F S1x1024 .f32) (xo : Vec F S2048x1024 .f32) (y : S2048x1024.Idx) :
    ∃ pc ∈ (runB c i a3 h3 a4 h4 a5 h5 a6 h6 hc1 hc2 hc3 x0 x1 x2 xo).1, y ∈ pc.1.set :=
  View.cover_of_tiledL (runB c i a3 h3 a4 h4 a5 h5 a6 h6 hc1 hc2 hc3 x0 x1 x2 xo).1 S2048x1024.size (by sl_kernel_rfl) y

/-- What this case leaves in the output block: its pieces read back. -/
def outB (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : ¬k0_cond3 i = 1#1) (x0 : Vec F S2048x512 .f32) (x1 : Vec F S1024x512 .f32) (x2 : Vec F S1x1024 .f32) (xo : Vec F S2048x1024 .f32) : Vec F S2048x1024 .f32 :=
  VO.read (Elt F) (VO.writes (Elt F) VO.junk (runB c i a3 h3 a4 h4 a5 h5 a6 h6 hc1 hc2 hc3 x0 x1 x2 xo).1)

/-- The pieces of this case cover the output block (each store writes the whole block). -/
theorem coverC (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : k0_cond3 i = 1#1) (x0 : Vec F S2048x512 .f32) (x1 : Vec F S1024x512 .f32) (x2 : Vec F S1x1024 .f32) (xo : Vec F S2048x1024 .f32) (y : S2048x1024.Idx) :
    ∃ pc ∈ (runC c i a3 h3 a4 h4 a5 h5 a6 h6 hc1 hc2 hc3 x0 x1 x2 xo).1, y ∈ pc.1.set :=
  View.cover_of_tiledL (runC c i a3 h3 a4 h4 a5 h5 a6 h6 hc1 hc2 hc3 x0 x1 x2 xo).1 S2048x1024.size (by sl_kernel_rfl) y

/-- What this case leaves in the output block: its pieces read back. -/
def outC (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : k0_cond3 i = 1#1) (x0 : Vec F S2048x512 .f32) (x1 : Vec F S1024x512 .f32) (x2 : Vec F S1x1024 .f32) (xo : Vec F S2048x1024 .f32) : Vec F S2048x1024 .f32 :=
  VO.read (Elt F) (VO.writes (Elt F) VO.junk (runC c i a3 h3 a4 h4 a5 h5 a6 h6 hc1 hc2 hc3 x0 x1 x2 xo).1)

/-! ## Which branches a point takes, from its position along the contracted axis -/

theorem c1_of0 (t : Fin cfg0.N) (h0 : t.val % 8 = 0) : k0_cond1 (grid0.coords t) = 1#1 := (cond1_iff t).mpr h0
theorem nc2_of0 (t : Fin cfg0.N) (h0 : t.val % 8 = 0) : ¬k0_cond2 (grid0.coords t) = 1#1 := fun h => (cond2_iff t).mp h h0
theorem nc3_of0 (t : Fin cfg0.N) (h0 : t.val % 8 = 0) : ¬k0_cond3 (grid0.coords t) = 1#1 := fun h => by
  have := (cond3_iff t).mp h; omega
theorem nc1_of (t : Fin cfg0.N) (h0 : ¬t.val % 8 = 0) : ¬k0_cond1 (grid0.coords t) = 1#1 := fun h => h0 ((cond1_iff t).mp h)
theorem c2_of (t : Fin cfg0.N) (h0 : ¬t.val % 8 = 0) : k0_cond2 (grid0.coords t) = 1#1 := (cond2_iff t).mpr h0
theorem nc3_of (t : Fin cfg0.N) (h7 : ¬t.val % 8 = 7) : ¬k0_cond3 (grid0.coords t) = 1#1 := fun h => h7 ((cond3_iff t).mp h)
theorem nc1_of7 (t : Fin cfg0.N) (h7 : t.val % 8 = 7) : ¬k0_cond1 (grid0.coords t) = 1#1 := fun h => by
  have := (cond1_iff t).mp h; omega
theorem c2_of7 (t : Fin cfg0.N) (h7 : t.val % 8 = 7) : k0_cond2 (grid0.coords t) = 1#1 := (cond2_iff t).mpr (by omega)
theorem c3_of7 (t : Fin cfg0.N) (h7 : t.val % 8 = 7) : k0_cond3 (grid0.coords t) = 1#1 := (cond3_iff t).mpr h7

/-! ## What the output block holds after each point -/

/-- The accumulation: the output block after the body at position `n` of the grid's order. -/
def outsAt (c : Dev nD) : (n : ℕ) → n < cfg0.N → Vec F S2048x1024 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (c1_of0 ⟨0, hn⟩ (Nat.zero_mod _)) (nc2_of0 ⟨0, hn⟩ (Nat.zero_mod _)) (nc3_of0 ⟨0, hn⟩ (Nat.zero_mod _)) (iblk m c 0 ⟨0, hn⟩) (iblk m c 1 ⟨0, hn⟩) (iblk m c 2 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (c1_of0 ⟨n + 1, hn⟩ h0) (nc2_of0 ⟨n + 1, hn⟩ h0) (nc3_of0 ⟨n + 1, hn⟩ h0) (iblk m c 0 ⟨n + 1, hn⟩) (iblk m c 1 ⟨n + 1, hn⟩) (iblk m c 2 ⟨n + 1, hn⟩)
    else if h7 : (n + 1) % 8 = 7 then
      outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (nc1_of7 ⟨n + 1, hn⟩ h7) (c2_of7 ⟨n + 1, hn⟩ h7) (c3_of7 ⟨n + 1, hn⟩ h7) (iblk m c 0 ⟨n + 1, hn⟩) (iblk m c 1 ⟨n + 1, hn⟩) (iblk m c 2 ⟨n + 1, hn⟩) (outsAt c n (Nat.lt_of_succ_lt hn))
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (nc1_of ⟨n + 1, hn⟩ h0) (c2_of ⟨n + 1, hn⟩ h0) (nc3_of ⟨n + 1, hn⟩ h7) (iblk m c 0 ⟨n + 1, hn⟩) (iblk m c 1 ⟨n + 1, hn⟩) (iblk m c 2 ⟨n + 1, hn⟩) (outsAt c n (Nat.lt_of_succ_lt hn))

/-- At the first position of a run: the partial product alone. -/
theorem outsAt_A (c : Dev nD) (t : Fin cfg0.N) (h0 : t.val % 8 = 0) :
    outsAt m c t.val t.isLt = outA c (grid0.coords t) (ms0 t) (hs0 t) (ms1 t) (hs1 t) (ms2 t) (hs2 t) (ms3 t) (hs3 t) (c1_of0 t h0) (nc2_of0 t h0) (nc3_of0 t h0) (iblk m c 0 t) (iblk m c 1 t) (iblk m c 2 t) := by
  obtain ⟨n, hn⟩ := t
  cases n with
  | zero => exact rfl
  | succ n => exact (dif_pos h0).trans rfl

/-- At a middle position: the middle case over what the point before left. -/
theorem outsAt_B (c : Dev nD) (t : Fin cfg0.N) (h0 : ¬t.val % 8 = 0) (h7 : ¬t.val % 8 = 7) :
    outsAt m c t.val t.isLt = outB c (grid0.coords t) (ms0 t) (hs0 t) (ms1 t) (hs1 t) (ms2 t) (hs2 t) (ms3 t) (hs3 t) (nc1_of t h0) (c2_of t h0) (nc3_of t h7) (iblk m c 0 t) (iblk m c 1 t) (iblk m c 2 t) (outsAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h7).trans rfl)

/-- At the last position: the last case over what the point before left. -/
theorem outsAt_C (c : Dev nD) (t : Fin cfg0.N) (h7 : t.val % 8 = 7) :
    outsAt m c t.val t.isLt = outC c (grid0.coords t) (ms0 t) (hs0 t) (ms1 t) (hs1 t) (ms2 t) (hs2 t) (ms3 t) (hs3 t) (nc1_of7 t h7) (c2_of7 t h7) (c3_of7 t h7) (iblk m c 0 t) (iblk m c 1 t) (iblk m c 2 t) (outsAt m c (t.val - 1) (Nat.lt_of_le_of_lt (Nat.sub_le _ _) t.isLt)) := by
  obtain ⟨n, hn⟩ := t
  cases n with
  | zero => exact absurd ((Nat.zero_mod 8).symm.trans h7) (by decide)
  | succ n => exact (dif_neg (fun h => by have h7' : (n + 1) % 8 = 7 := h7; omega)).trans ((dif_pos h7).trans rfl)

/-! ## The proof data -/

/-- The arrays as the region finds them; after the body each input's buffer at its block and the output's at
    `outsAt`; the invariant the scoped rest and the random-number register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outsAt m c t.val t.isLt := by dsimp only [dats]

/-- Each input's current staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- Past the first position of a run the output's staging buffer holds what the body left at the point before:
    the block is written back only after the last position, and the window is never idle. -/
theorem before_3 (c : Dev nD) (t : Fin cfg0.N) (h0 : ¬t.val % 8 = 0) (d) :
    (dats m 0 c).before 3 t d = (outsAt m c (t.val - 1) (Nat.lt_of_le_of_lt (Nat.sub_le _ _) t.isLt)) := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    live3 (fun _ _ => rfl)]
  dsimp only [dats]

/-! ## The body obligation -/

/-- At every grid coordinate one of the first two branches stores into the output block: the window's idle flag is
    false everywhere. -/
theorem live3' : ∀ i : grid0.Coords, idle0 3 i = false := live3

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' memrefs hold their blocks; the position along the contracted axis says which
    case the point is in; past position 0 the output's buffer holds what the point before left; so that case's run
    applies, and the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  have hN : t.val < 64 := lt_of_lt_of_eq t.isLt (show cfg0.N = 64 from N_0)
  by_cases h0 : t.val % 8 = 0
  · rw [outsAt_A m c t h0]
    unfold outA
    iintro ⟨HΦ, Ho, ⟨%d0, H0⟩, ⟨%d1, H1⟩, ⟨%d2, H2⟩, ⟨%d3, H3⟩⟩
    iapply ((runA c (grid0.coords t) _ _ _ _ _ _ _ _ (c1_of0 t h0) (nc2_of0 t h0) (nc3_of0 t h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _ _ _)
  · simp only [before_3 m c t h0]
    by_cases h7 : t.val % 8 = 7
    · rw [outsAt_C m c t h7]
      unfold outC
      iintro ⟨HΦ, Ho, ⟨%d0, H0⟩, ⟨%d1, H1⟩, ⟨%d2, H2⟩, ⟨%d3, H3⟩⟩
      iapply ((runC c (grid0.coords t) _ _ _ _ _ _ _ _ (nc1_of7 t h7) (c2_of7 t h7) (c3_of7 t h7) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC c _ _ _ _ _ _ _ _ _ _ _ _ _ _ _ _)
    · rw [outsAt_B m c t h0 h7]
      unfold outB
      iintro ⟨HΦ, Ho, ⟨%d0, H0⟩, ⟨%d1, H1⟩, ⟨%d2, H2⟩, ⟨%d3, H3⟩⟩
      iapply ((runB c (grid0.coords t) _ _ _ _ _ _ _ _ (nc1_of t h0) (c2_of t h0) (nc3_of t h7) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverB c _ _ _ _ _ _ _ _ _ _ _ _ _ _ _ _)

set_option maxHeartbeats 4000000 in
/-- The body obligation, at every point of the grid. -/
theorem body_obligation (c : Dev nD) : BodyObligation (dats (F := F) m 0 c) (defs₀ (F := F)) Variants.none () Set.univ := fun t => by
  rw [bigSep_W0, bigSep_W0]
  simp only [live3' (grid0.coords t)]
  exact sound_body m c t

/-! ## The run and the frame -/

set_option maxHeartbeats 4000000 in
set_option backward.isDefEq.respectTransparency.types false in
/-- From any memory with zero counters every weakly fair execution of the program terminates, and every final state
    has every array of the pipeline at what the proof data gives and every other unscoped buffer as the lines after
    the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere, and leaves its three argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.BinLinear.KI

end
-- ==== Proof.KI.Pieces.lean ====
/-
  What each case of the body leaves in the output block, as a value: the last store's payload, its loads read as
  the whole buffers they are. At the first position the partial product of the two input blocks; at a middle
  position the running contents plus the partial product; at the last position that sum plus the bias row
  (the second store reads back what the first one wrote).
-/
import proofs.«159385_j44349832298616_2_alg».proof.Proof.KI.Body
import Idealize.ShloMosaic.Lib.Pipeline.Value

set_option maxRecDepth 16384

noncomputable section

namespace Cert.BinLinear.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- At the first position the block is the partial product. -/
theorem outA_eq (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : k0_cond1 i = 1#1) (hc2 : ¬k0_cond2 i = 1#1) (hc3 : ¬k0_cond3 i = 1#1) (x0 : Vec F S2048x512 .f32) (x1 : Vec F S1024x512 .f32) (x2 : Vec F S1x1024 .f32) :
    outA c i a3 h3 a4 h4 a5 h5 a6 h6 hc1 hc2 hc3 x0 x1 x2 = k0_pay1 x0 x1 := by
  unfold outA
  rw [View.read_writes_eq_canon _ _ _ (coverA c i a3 h3 a4 h4 a5 h5 a6 h6 hc1 hc2 hc3 x0 x1 x2)]
  unfold runA
  dsimp only
  rw [View.canon_unit_zero hz]
  simp only [View.readAt_eq_ld, h3.read_unread, h4.read_unread, View.ld_unit_zero (S := S2048x512) hz,
    View.ld_unit_zero (S := S1024x512) hz]

/-- At a middle position the block is its running contents plus the partial product. -/
theorem outB_eq (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : ¬k0_cond3 i = 1#1) (x0 : Vec F S2048x512 .f32) (x1 : Vec F S1024x512 .f32) (x2 : Vec F S1x1024 .f32) (xo : Vec F S2048x1024 .f32) :
    outB c i a3 h3 a4 h4 a5 h5 a6 h6 hc1 hc2 hc3 x0 x1 x2 xo = k0_pay2 x0 x1 xo := by
  unfold outB
  rw [View.read_writes_eq_canon _ _ _ (coverB c i a3 h3 a4 h4 a5 h5 a6 h6 hc1 hc2 hc3 x0 x1 x2 xo)]
  unfold runB
  dsimp only
  rw [View.canon_unit_zero hz]
  simp only [View.readAt_eq_ld, h3.read_unread, h4.read_unread, h6.read_unread, View.ld_unit_zero (S := S2048x512) hz,
    View.ld_unit_zero (S := S1024x512) hz, View.ld_unit_zero (S := S2048x1024) hz]

/-- At the last position the block is the middle case's sum plus the bias row. -/
theorem outC_eq (c : Dev nD) (i : grid0.Coords)
    (a3 : Memref sig .tc .vmem S2048x512 .f32) (h3 : a3.IsWhole) (a4 : Memref sig .tc .vmem S1024x512 .f32) (h4 : a4.IsWhole)
    (a5 : Memref sig .tc .vmem S1x1024 .f32) (h5 : a5.IsWhole) (a6 : Memref sig .tc .vmem S2048x1024 .f32) (h6 : a6.IsWhole)
    (hc1 : ¬k0_cond1 i = 1#1) (hc2 : k0_cond2 i = 1#1) (hc3 : k0_cond3 i = 1#1) (x0 : Vec F S2048x512 .f32) (x1 : Vec F S1024x512 .f32) (x2 : Vec F S1x1024 .f32) (xo : Vec F S2048x1024 .f32) :
    outC c i a3 h3 a4 h4 a5 h5 a6 h6 hc1 hc2 hc3 x0 x1 x2 xo = k0_pay3 (k0_pay2 x0 x1 xo) x2 := by
  unfold outC
  rw [View.read_writes_eq_canon _ _ _ (coverC c i a3 h3 a4 h4 a5 h5 a6 h6 hc1 hc2 hc3 x0 x1 x2 xo)]
  unfold runC
  dsimp only
  sl_unfold_words
  rw [View.canon_cons_unit_zero (S := S2048x1024) hz, View.readCov_unit_zero (S := S2048x1024) _ hz]
  simp only [View.readAt_eq_ld, h3.read_unread, h4.read_unread, h5.read_unread, h6.read_unread,
    View.ld_unit_zero (S := S2048x512) hz, View.ld_unit_zero (S := S1024x512) hz, View.ld_unit_zero (S := S1x1024) hz,
    View.ld_unit_zero (S := S2048x1024) hz]

end Cert.BinLinear.KI

end
-- ==== Proof.KI.Blocks.lean ====
/-
  The layout of the kernel program: which entries of the argument arrays each window's block holds at a grid point,
  what the reshapes around the region do to an index, and where the output window's block lies in its array.
  Index arithmetic only.
-/
import proofs.«159385_j44349832298616_2_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.BinLinear.KI

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ)

/-! ## The grid point's coordinates -/

/-- The row-block coordinate `i` of point `t` (of 2). -/
abbrev ci (t : Fin cfg0.N) : ℕ := (grid0.coords t 0).val
/-- The column-block coordinate `j` of point `t` (of 4). -/
abbrev cj (t : Fin cfg0.N) : ℕ := (grid0.coords t 1).val
/-- The contraction-block coordinate `k` of point `t` (of 8). -/
abbrev ck (t : Fin cfg0.N) : ℕ := (grid0.coords t 2).val

theorem ci_lt (t : Fin cfg0.N) : ci t < 2 := (grid0.coords t 0).isLt
theorem cj_lt (t : Fin cfg0.N) : cj t < 4 := (grid0.coords t 1).isLt
theorem ck_lt (t : Fin cfg0.N) : ck t < 8 := (grid0.coords t 2).isLt

/-- The points run row-major, the contraction axis fastest: the coordinates are the digits of `t`. -/
theorem coords_eq : ∀ t : Fin cfg0.N, ci t = t.val / 32 ∧ cj t = t.val / 8 % 4 ∧ ck t = t.val % 8 :=
  (by decide +kernel : ∀ t : Fin grid0.N, _)

theorem ck_eq (t : Fin cfg0.N) : ck t = t.val % 8 := (coords_eq t).2.2

theorem pt_lt (t : Fin cfg0.N) : t.val < 64 := N_0 ▸ t.isLt

theorem pt_eq (t : Fin cfg0.N) : t.val = ci t * 32 + cj t * 8 + ck t := by
  obtain ⟨e0, e1, e2⟩ := coords_eq t
  have := pt_lt t
  omega

/-- Within one output block the points are consecutive: stepping back from a point that is not the first of its
    contraction run keeps `i` and `j` and lowers `k` by one. -/
theorem prev_coords (t : Fin cfg0.N) (h : t.val % 8 ≠ 0) :
    ci (⟨t.val - 1, Nat.lt_of_le_of_lt (Nat.sub_le _ _) t.isLt⟩ : Fin cfg0.N) = ci t
    ∧ cj (⟨t.val - 1, Nat.lt_of_le_of_lt (Nat.sub_le _ _) t.isLt⟩ : Fin cfg0.N) = cj t
    ∧ ck (⟨t.val - 1, Nat.lt_of_le_of_lt (Nat.sub_le _ _) t.isLt⟩ : Fin cfg0.N) + 1 = ck t := by
  obtain ⟨e0, e1, e2⟩ := coords_eq t
  obtain ⟨f0, f1, f2⟩ := coords_eq (⟨t.val - 1, Nat.lt_of_le_of_lt (Nat.sub_le _ _) t.isLt⟩ : Fin cfg0.N)
  have := pt_lt t
  rw [e0, e1, e2, f0, f1, f2]
  show (t.val - 1) / 32 = t.val / 32 ∧ (t.val - 1) / 8 % 4 = t.val / 8 % 4 ∧ (t.val - 1) % 8 + 1 = t.val % 8
  omega

/-! ## The reshapes before the region, read at an index -/

/-- The first reshape's result is the argument re-indexed. -/
theorem V_v0_eq (c : Dev nD) :
    (V m c main_v0 : S4096x4096.Idx → Elt F .f32)
      = shapeCast S4096x4096 (m ((c : Thread nD τ).loc main_arg0) : S2x2048x4096.Idx → Elt F .f32) shapeCasts_S2x2048x4096_S4096x4096 := by
  show StableHlo.after hostOps0 (fun b => m (c, b)) (Proc.devRef .tc main_v0) = _
  after_results
  rfl

/-- Row `r` of the flattened activations is row `r % 2048` of batch `r / 2048`. -/
theorem V_v0_apply (c : Dev nD) (r d : Fin 4096) :
    (V m c main_v0 : S4096x4096.Idx → Elt F .f32) (ix2 r d)
      = (m ((c : Thread nD τ).loc main_arg0) : S2x2048x4096.Idx → Elt F .f32)
          (ix3 (⟨r.val / 2048, by have := r.isLt; omega⟩ : Fin 2) (⟨r.val % 2048, Nat.mod_lt _ (by decide)⟩ : Fin 2048) d) := by
  rw [V_v0_eq]
  refine shapeCast_apply (s := S2x2048x4096) (t := S4096x4096) _ _ _ _ ?_
  rw [Shape.rowMajor_val_three, Shape.rowMajor_val_two]
  show (r.val / 2048 * 2048 + r.val % 2048) * 4096 + d.val = r.val * 4096 + d.val
  have := r.isLt
  omega

/-- The second reshape's result is the bias re-indexed. -/
theorem V_v1_eq (c : Dev nD) :
    (V m c main_v1 : S1x4096.Idx → Elt F .f32)
      = shapeCast S1x4096 (m ((c : Thread nD τ).loc main_arg2) : S4096.Idx → Elt F .f32) shapeCasts_S4096_S1x4096 := by
  show StableHlo.after hostOps0 (fun b => m (c, b)) (Proc.devRef .tc main_v1) = _
  after_results
  rfl

/-- The bias as a one-row matrix: entry `(0, n)` is entry `n`. -/
theorem V_v1_apply (c : Dev nD) (n : Fin 4096) :
    (V m c main_v1 : S1x4096.Idx → Elt F .f32) (ix2 (0 : Fin 1) n)
      = (m ((c : Thread nD τ).loc main_arg2) : S4096.Idx → Elt F .f32) (ix1 n) := by
  rw [V_v1_eq]
  refine shapeCast_apply (s := S4096) (t := S1x4096) _ _ _ _ ?_
  rw [Shape.rowMajor_val_one, Shape.rowMajor_val_two]
  show n.val = 0 * 4096 + n.val
  omega

/-! ## The windows' blocks, read at an index -/

/-- The windows' index maps, decided over the grid: the activations' block is `(i, k)`, the weight's `(j, k)`, the
    bias's `(0, j)`, the output's `(i, j)`. -/
theorem idx_facts : ∀ t : Fin cfg0.N,
    win0_0.index t (0 : Fin 2) = ci t ∧ win0_0.index t (1 : Fin 2) = ck t
    ∧ win0_1.index t (0 : Fin 2) = cj t ∧ win0_1.index t (1 : Fin 2) = ck t
    ∧ win0_2.index t (0 : Fin 2) = 0 ∧ win0_2.index t (1 : Fin 2) = cj t
    ∧ win0_3.index t (0 : Fin 2) = ci t ∧ win0_3.index t (1 : Fin 2) = cj t :=
  (by decide +kernel : ∀ t : Fin grid0.N, _)

/-- The activations' block at point `t`: rows `2048 i …`, columns `512 k …` of the flattened activations. -/
theorem iblk0_apply (c : Dev nD) (t : Fin cfg0.N) (p : Fin 2048) (r : Fin 512) :
    (iblk m c 0 t : Vec F S2048x512 .f32) (ix2 p r)
      = (V m c main_v0 : S4096x4096.Idx → Elt F .f32)
          (ix2 (⟨ci t * 2048 + p.val, by have := ci_lt t; have := p.isLt; omega⟩ : Fin 4096)
            (⟨ck t * 512 + r.val, by have := ck_lt t; have := r.isLt; omega⟩ : Fin 4096)) := by
  obtain ⟨e0, e1, -⟩ := idx_facts t
  unfold iblk
  rw [View.read_apply]
  show V m c main_v0 _ = V m c main_v0 _
  congr 1
  funext a
  apply Fin.ext
  match a with
  | ⟨0, _⟩ => show win0_0.index t 0 * 2048 + 1 * p.val = ci t * 2048 + p.val; rw [e0]; omega
  | ⟨1, _⟩ => show win0_0.index t 1 * 512 + 1 * r.val = ck t * 512 + r.val; rw [e1]; omega

/-- The weight's block at point `t`: rows `1024 j …`, columns `512 k …` of the weight. -/
theorem iblk1_apply (c : Dev nD) (t : Fin cfg0.N) (q : Fin 1024) (r : Fin 512) :
    (iblk m c 1 t : Vec F S1024x512 .f32) (ix2 q r)
      = (V m c main_arg1 : S4096x4096.Idx → Elt F .f32)
          (ix2 (⟨cj t * 1024 + q.val, by have := cj_lt t; have := q.isLt; omega⟩ : Fin 4096)
            (⟨ck t * 512 + r.val, by have := ck_lt t; have := r.isLt; omega⟩ : Fin 4096)) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t 0 * 1024 + 1 * q.val = cj t * 1024 + q.val; rw [e0]; omega
  | ⟨1, _⟩ => show win0_1.index t 1 * 512 + 1 * r.val = ck t * 512 + r.val; rw [e1]; omega

/-- The bias's block at point `t`: columns `1024 j …` of the one-row bias. -/
theorem iblk2_apply (c : Dev nD) (t : Fin cfg0.N) (q : Fin 1024) :
    (iblk m c 2 t : Vec F S1x1024 .f32) (ix2 (0 : Fin 1) q)
      = (V m c main_v1 : S1x4096.Idx → Elt F .f32)
          (ix2 (0 : Fin 1) (⟨cj t * 1024 + q.val, by have := cj_lt t; have := q.isLt; omega⟩ : Fin 4096)) := by
  obtain ⟨-, -, -, -, e0, e1, -⟩ := idx_facts t
  unfold iblk
  rw [View.read_apply]
  show V m c main_v1 _ = V m c main_v1 _
  congr 1
  funext a
  apply Fin.ext
  match a with
  | ⟨0, _⟩ => show win0_2.index t 0 * 1 + 1 * 0 = 0; rw [e0]
  | ⟨1, _⟩ => show win0_2.index t 1 * 1024 + 1 * q.val = cj t * 1024 + q.val; rw [e1]; omega

/-! ## The reshape after the region, read at an index -/

/-- The program's result is the output window's array after the run, re-indexed. -/
theorem tail_v3_eq (dats : (p : Fin 1) → (c : Dev nD) → Pipeline.Dat τ (Elt F) Unit ℕ (UR sig nD τ) ℕ (cfgs p) c) (c : Dev nD) :
    (Pipeline.afterTail₀ cfgs dats 0 (V0 m) [hostOps1] c main_v3 : S2x2048x4096.Idx → Elt F .f32)
      = shapeCast S2x2048x4096 ((dats 0 c).arrAt 3 cfg0.N : S4096x4096.Idx → Elt F .f32) shapeCasts_S4096x4096_S2x2048x4096 := by
  unfold Pipeline.afterTail₀
  show StableHlo.after hostOps1 _ (Proc.devRef .tc main_v3) = _
  after_results
  exact congrArg (fun A : S4096x4096.Idx → Elt F .f32 => shapeCast S2x2048x4096 A shapeCasts_S4096x4096_S2x2048x4096)
    (Pipeline.withArrays_arr spec0 launch0.win.arr_inj c _ _ 3)

/-- Entry `(b, s, o)` of the result is entry `(2048 b + s, o)` of the output window's array after the run. -/
theorem tail_v3_apply (dats : (p : Fin 1) → (c : Dev nD) → Pipeline.Dat τ (Elt F) Unit ℕ (UR sig nD τ) ℕ (cfgs p) c) (c : Dev nD)
    (b : Fin 2) (s : Fin 2048) (o : Fin 4096) :
    (Pipeline.afterTail₀ cfgs dats 0 (V0 m) [hostOps1] c main_v3 : S2x2048x4096.Idx → Elt F .f32) (ix3 b s o)
      = ((dats 0 c).arrAt 3 cfg0.N : S4096x4096.Idx → Elt F .f32)
          (ix2 (⟨b.val * 2048 + s.val, by have := b.isLt; have := s.isLt; omega⟩ : Fin 4096) o) := by
  rw [tail_v3_eq]
  refine shapeCast_apply (s := S4096x4096) (t := S2x2048x4096) _ _ _ _ ?_
  rw [Shape.rowMajor_val_three, Shape.rowMajor_val_two]
  show (b.val * 2048 + s.val) * 4096 + o.val = (b.val * 2048 + s.val) * 4096 + o.val
  rfl

/-! ## The output window's block inside its array -/

/-- Entry `(p, q)` of the output block at point `t` is entry `(2048 i + p, 1024 j + q)` of the output array. -/
theorem out_blk_apply (t : Fin cfg0.N) (p : Fin 2048) (q : Fin 1024) :
    (((cfg0.win 3).blk t).view.emb : S2048x1024.Idx → S4096x4096.Idx) (ix2 p q)
      = ix2 (⟨ci t * 2048 + p.val, by have := ci_lt t; have := p.isLt; omega⟩ : Fin 4096)
          (⟨cj t * 1024 + q.val, by have := cj_lt t; have := q.isLt; omega⟩ : Fin 4096) := by
  obtain ⟨-, -, -, -, -, -, e0, e1⟩ := idx_facts t
  funext a
  apply Fin.ext
  match a with
  | ⟨0, _⟩ => show win0_3.index t 0 * 2048 + 1 * p.val = ci t * 2048 + p.val; rw [e0]; omega
  | ⟨1, _⟩ => show win0_3.index t 1 * 1024 + 1 * q.val = cj t * 1024 + q.val; rw [e1]; omega

/-- An index of the output array lies in point `t`'s block iff its row is in row-block `i` and its column in
    column-block `j`. -/
theorem out_blk_mem (t : Fin cfg0.N) (i : S4096x4096.Idx) :
    i ∈ ((cfg0.win 3).blk t).view.set
      ↔ (ci t * 2048 ≤ (i 0).val ∧ (i 0).val < ci t * 2048 + 2048) ∧ (cj t * 1024 ≤ (i 1).val ∧ (i 1).val < cj t * 1024 + 1024) := by
  obtain ⟨-, -, -, -, -, -, e0, e1⟩ := idx_facts t
  show i ∈ ((View.whole main_v2).slice (win0_3.rect t)).set ↔ _
  rw [View.set_slice_whole, Rect.mem_set_unit]
  constructor
  · intro h
    have b0 : win0_3.index t (0 : Fin 2) * 2048 ≤ (i 0).val ∧ (i 0).val < win0_3.index t (0 : Fin 2) * 2048 + 2048 := h 0
    have b1 : win0_3.index t (1 : Fin 2) * 1024 ≤ (i 1).val ∧ (i 1).val < win0_3.index t (1 : Fin 2) * 1024 + 1024 := h 1
    rw [e0] at b0; rw [e1] at b1
    exact ⟨b0, b1⟩
  · rintro ⟨b0, b1⟩ a
    match a with
    | ⟨0, _⟩ => show win0_3.index t (0 : Fin 2) * 2048 ≤ (i 0).val ∧ (i 0).val < win0_3.index t (0 : Fin 2) * 2048 + 2048; rw [e0]; exact b0
    | ⟨1, _⟩ => show win0_3.index t (1 : Fin 2) * 1024 ≤ (i 1).val ∧ (i 1).val < win0_3.index t (1 : Fin 2) * 1024 + 1024; rw [e1]; exact b1

/-- The output block is written back exactly at the last step of its contraction run. -/
theorem out_flush : ∀ t : Fin cfg0.N, (cfg0.win 3).flush t = true ↔ ck t = 7 :=
  (by decide +kernel : ∀ t : Fin grid0.N, _)

/-- Every entry of the output array is in the block of a point that writes back: the blocks tile the array. -/
theorem out_cover (i : S4096x4096.Idx) :
    ∃ t : Fin cfg0.N, (cfg0.win 3).flush t = true ∧ i ∈ ((cfg0.win 3).blk t).view.set := by
  have h0 : (i 0).val < 4096 := (i 0).isLt
  have h1 : (i 1).val < 4096 := (i 1).isLt
  let t : Fin cfg0.N := ⟨(i 0).val / 2048 * 32 + (i 1).val / 1024 * 8 + 7, by rw [show cfg0.N = 64 from N_0]; omega⟩
  obtain ⟨f0, f1, f2⟩ := coords_eq t
  have g0 : ci t = (i 0).val / 2048 := by rw [f0]; show ((i 0).val / 2048 * 32 + (i 1).val / 1024 * 8 + 7) / 32 = _; omega
  have g1 : cj t = (i 1).val / 1024 := by rw [f1]; show ((i 0).val / 2048 * 32 + (i 1).val / 1024 * 8 + 7) / 8 % 4 = _; omega
  have g2 : ck t = 7 := by rw [f2]; show ((i 0).val / 2048 * 32 + (i 1).val / 1024 * 8 + 7) % 8 = _; omega
  refine ⟨t, (out_flush t).2 g2, (out_blk_mem t i).2 ?_⟩
  rw [g0, g1]
  omega

end Cert.BinLinear.KI

end
-- ==== Proof.RunSum.lean ====
/-
  The running sum of eight terms.

  The contracted axis is visited in eight runs, one after the other, and the partial result after run k is the sum of
  the runs 0, ..., k.  It starts at the first run, grows by one run at each step, and after the last run is the sum of
  all eight.  It holds in any additive commutative monoid.
-/
import Mathlib.Algebra.BigOperators.Fin

namespace Cert.BinLinear

open scoped BigOperators

variable {M : Type*} [AddCommMonoid M]

/-- The sum of the terms of index at most k. -/
def runSum (g : Fin 8 → M) (k : ℕ) : M :=
  ∑ k' ∈ Finset.univ.filter (fun k' : Fin 8 => k'.val ≤ k), g k'

/-- Only the index 0 is at most 0. -/
theorem runSum_zero (g : Fin 8 → M) : runSum g 0 = g 0 := by
  unfold runSum
  have hset : Finset.univ.filter (fun k' : Fin 8 => k'.val ≤ 0) = {0} := by
    ext a
    simp only [Finset.mem_filter, Finset.mem_univ, true_and, Finset.mem_singleton, Fin.ext_iff, Fin.val_zero]
    omega
  rw [hset, Finset.sum_singleton]

/-- The indices at most k + 1 are those at most k together with k + 1 itself, which is not among them. -/
theorem runSum_succ (g : Fin 8 → M) (k : ℕ) (hk : k + 1 < 8) :
    runSum g (k + 1) = runSum g k + g ⟨k + 1, hk⟩ := by
  unfold runSum
  have hset : Finset.univ.filter (fun k' : Fin 8 => k'.val ≤ k + 1)
      = insert (⟨k + 1, hk⟩ : Fin 8) (Finset.univ.filter (fun k' : Fin 8 => k'.val ≤ k)) := by
    ext a
    simp only [Finset.mem_filter, Finset.mem_univ, true_and, Finset.mem_insert, Fin.ext_iff]
    omega
  have hnot : (⟨k + 1, hk⟩ : Fin 8) ∉ Finset.univ.filter (fun k' : Fin 8 => k'.val ≤ k) := by
    simp only [Finset.mem_filter, Finset.mem_univ, true_and]
    omega
  rw [hset, Finset.sum_insert hnot, add_comm]

/-- Every index is at most 7. -/
theorem runSum_last (g : Fin 8 → M) : runSum g 7 = ∑ k' : Fin 8, g k' := by
  unfold runSum
  rw [Finset.filter_true_of_mem fun a _ => Nat.le_of_lt_succ a.isLt]

end Cert.BinLinear
-- ==== Proof.KI.AccumDef.lean ====
/-
  What the output block holds after a grid point.

  The point t has coordinates (i, j, k).  After it the output block holds, at (p, q), the running sum over the runs
  0, ..., k of the contracted axis of the products of row 2048 i + p of the flattened input with the signs of row
  1024 j + q of the weight, and — once the last run has been added — the bias entry 1024 j + q as well.
-/
import proofs.«159385_j44349832298616_2_alg».proof.Proof.KI.Blocks
import proofs.«159385_j44349832298616_2_alg».proof.Proof.RunSum
import Idealize.ShloMosaic.PureOps.Ideal

noncomputable section

open scoped BigOperators

namespace Cert.BinLinear.KI

open Cert.KernelIdeal Cert.KernelIdeal.Gen Idealize.ShloMosaic Idealize.ShloMosaic.ValueIdx

/-- The output block after the point t, as a function of the flattened input X, the weight W and the one-row
    bias B. -/
def blockAfter (X W : Vec Ideal S4096x4096 .f32) (B : Vec Ideal S1x4096 .f32) (t : Fin cfg0.N) :
    Vec Ideal S2048x1024 .f32 := fun y =>
  runSum (fun k' : Fin 8 => ∑ r : Fin 512,
      X (ix2 (⟨ci t * 2048 + (y 0).val, by have := ci_lt t; have := idx2_lt0 y; omega⟩ : Fin 4096)
          (⟨k'.val * 512 + r.val, by have := k'.isLt; have := r.isLt; omega⟩ : Fin 4096))
        * Ideal.sign (W (ix2 (⟨cj t * 1024 + (y 1).val, by have := cj_lt t; have := idx2_lt1 y; omega⟩ : Fin 4096)
          (⟨k'.val * 512 + r.val, by have := k'.isLt; have := r.isLt; omega⟩ : Fin 4096)))) (ck t)
    + (if ck t = 7 then
        B (ix2 (0 : Fin 1) (⟨cj t * 1024 + (y 1).val, by have := cj_lt t; have := idx2_lt1 y; omega⟩ : Fin 4096))
      else 0)

end Cert.BinLinear.KI

end
-- ==== Proof.LibMatmulSumT.lean ====
/-
  A matrix product with the right operand transposed, read at an index, at the ideal values.

  For dimension numbers that contract the left operand's axis 1 with the right operand's axis 1, with no batch axis — an
  [M, K] by [N, K] product into [M, N], the product of the left matrix with the transpose of the right — the operand
  indices at result index `j` and contraction index `q` are (j 0, q) and (j 1, q).  So a `tpu.matmul` into a zero
  accumulator is, at every result index, the sum over `k : Fin K` of `l (j 0, k) * r (j 1, k)` on the extended reals.
-/
import Idealize.ShloMosaic.PureOps.Ideal.Laws
import Idealize.ShloMosaic.Lib.ValueIdx

noncomputable section

namespace Cert.LibMatmulSumT

open Idealize.ShloMosaic Idealize.ShloMosaic.ValueIdx

variable {M K N : Nat} (d : DotDims ⟨2, ![M, K]⟩ ⟨2, ![N, K]⟩ ⟨2, ![M, N]⟩)

/-- The one contraction axis has extent `K`. -/
theorem contr_rank (hlc : d.lhsContracting = [1]) : d.contr.rank = 1 := by
  rw [d.rank_contr, hlc]; rfl

theorem contr_size (hlc : d.lhsContracting = [1]) : d.contr.size ⟨0, by rw [contr_rank d hlc]; exact Nat.one_pos⟩ = K := by
  rw [d.size_contr 0 (by rw [hlc]; exact Nat.one_pos)]
  simp only [hlc, List.getElem_cons_zero]
  rfl

/-- Row coordinate of the left operand's index: the result's row. -/
theorem lhsIdx_row (hln : d.lhsNonContracting = [0]) (hlb : d.lhsBatch = [])
    (j : (⟨2, ![M, N]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln])

/-- Row coordinate of the right operand's index: the result's column. -/
theorem rhsIdx_row (hln : d.lhsNonContracting = [0]) (hrn : d.rhsNonContracting = [0]) (hlb : d.lhsBatch = [])
    (hrb : d.rhsBatch = []) (j : (⟨2, ![M, N]⟩ : Shape).Idx) (q : d.contr.Idx) : (d.rhsIdx j q 0).val = (j 1).val := by
  unfold DotDims.rhsIdx
  rw [dif_neg (by rw [hrb]; exact List.not_mem_nil), dif_pos (by rw [hrn]; exact List.mem_singleton.mpr rfl)]
  simp only [Fin.val_cast]
  have key : ∀ (p r : Nat) (hp : p < 2) (hr : r < 2), p = r →
      (j ⟨p, hp⟩).val = (j ⟨r, hr⟩).val := fun p r hp hr h => by subst h; rfl
  exact key _ _ _ _ (by simp [hlb, hln, hrn])

/-- The contraction sum, re-indexed over `Fin K`. -/
theorem sum_contr (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (j : (⟨2, ![M, N]⟩ : Shape).Idx) :
    ∑ q : d.contr.Idx, l (d.lhsIdx j q) * r (d.rhsIdx j q) = ∑ k : Fin K, l (ix2 (j 0) k) * r (ix2 (j 1) k) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx j ((contrEquiv1 d K (contr_rank d hlc) (contr_size d hlc)).symm k) = ix2 (j 0) k :=
    funext fun a => Fin.ext (by
      match a with
      | ⟨0, _⟩ => exact lhsIdx_row d hln hlb _ _
      | ⟨1, _⟩ => exact (d.lhsIdx_val_of_single hlc _ _).trans hk)
  have er : d.rhsIdx j ((contrEquiv1 d K (contr_rank d hlc) (contr_size d hlc)).symm k) = ix2 (j 1) k :=
    funext fun a => Fin.ext (by
      match a with
      | ⟨0, _⟩ => exact rhsIdx_row d hln hrn hlb hrb _ _
      | ⟨1, _⟩ => exact (d.rhsIdx_val_of_single hrc _ _).trans hk)
  exact congrArg₂ (fun a b => l a * r b) el er

/-- A `tpu.matmul` of such a product into the zero splat, at an index: the sum of products over the shared axis. -/
theorem matmul_zero_apply {φ₁ φ₂ : FTy} (hlc : d.lhsContracting = [1]) (hrc : d.rhsContracting = [1])
    (hln : d.lhsNonContracting = [0]) (hrn : d.rhsNonContracting = [0]) (hlb : d.lhsBatch = []) (hrb : d.rhsBatch = [])
    (prec : Option ContractPrecision) (l : FVec Ideal ⟨2, ![M, K]⟩ φ₁) (r : FVec Ideal ⟨2, ![N, K]⟩ φ₂)
    (j : (⟨2, ![M, N]⟩ : Shape).Idx) :
    FloatOps.matmul d prec l r (constant ⟨2, ![M, N]⟩ .f32 0x00000000#32) j = ∑ k : Fin K, l (ix2 (j 0) k) * r (ix2 (j 1) k) :=
  (Ideal.matmul_constant_zero_apply d prec l r j).trans (sum_contr d hlc hrc hln hrn hlb hrb l r j)

end Cert.LibMatmulSumT

end
-- ==== Proof.LibSumTiles.lean ====
/-
  Regrouping a sum over a range cut into equal tiles.

  The indices below `n * b` are exactly the numbers `t * b + r` with `t < n` the tile and `r < b` the
  place inside the tile, each once. A sum over the whole range, in a commutative monoid, is therefore the
  sum over the tiles of each tile's own sum.
-/
import Mathlib.Algebra.BigOperators.Fin
import Mathlib.Logic.Equiv.Fin.Basic

namespace Cert.LibSumTiles

open scoped BigOperators

/-- Place `r` of tile `t` lies below `n * b`: `t * b + r < t * b + b = (t + 1) * b ≤ n * b`. -/
theorem tile_lt {n b : Nat} (t : Fin n) (r : Fin b) : t.val * b + r.val < n * b :=
  calc t.val * b + r.val < t.val * b + b := Nat.add_lt_add_left r.isLt _
    _ = (t.val + 1) * b := (Nat.succ_mul _ _).symm
    _ ≤ n * b := Nat.mul_le_mul_right b t.isLt

/-- A sum over `Fin (n * b)` is the sum over the `n` tiles of the sum over the `b` places of a tile, the
    summand taken at index `t * b + r`. It holds in any additive commutative monoid: the map
    `(t, r) ↦ t * b + r` is a bijection from pairs onto the range, and a finite sum does not depend on the
    order of its terms. -/
theorem sum_tiles {M : Type*} [AddCommMonoid M] (n b : Nat) (f : Fin (n * b) → M) :
    ∑ i, f i = ∑ t : Fin n, ∑ r : Fin b, f ⟨t.val * b + r.val, tile_lt t r⟩ := by
  rw [← Fintype.sum_prod_type']
  refine (Fintype.sum_equiv finProdFinEquiv _ _ ?_).symm
  rintro ⟨t, r⟩
  refine congrArg f (Fin.ext ?_)
  show t.val * b + r.val = r.val + b * t.val
  rw [Nat.add_comm, Nat.mul_comm]

/-- 8192 indices as 64 tiles of 128. -/
theorem sum_tiles_64_128 {M : Type*} [AddCommMonoid M] (f : Fin 8192 → M) :
    ∑ i, f i = ∑ t : Fin 64, ∑ r : Fin 128,
      f ⟨t.val * 128 + r.val, tile_lt (n := 64) (b := 128) t r⟩ :=
  sum_tiles 64 128 f

/-- 8192 indices as 16 tiles of 512. -/
theorem sum_tiles_16_512 {M : Type*} [AddCommMonoid M] (f : Fin 8192 → M) :
    ∑ i, f i = ∑ t : Fin 16, ∑ r : Fin 512,
      f ⟨t.val * 512 + r.val, tile_lt (n := 16) (b := 512) t r⟩ :=
  sum_tiles 16 512 f

end Cert.LibSumTiles
-- ==== Proof.Payload.lean ====
/-
  The arithmetic of the kernel body, read at an index, on the extended reals.

  One grid step holds a 2048 x 512 block of the input and a 1024 x 512 block of the weight.  The body replaces every
  weight entry by its sign — spelt as "if |w| > 0 then (if w < 0 then -1 else 1) else w" —, multiplies the input block
  by the transpose of the signed weight block, and either stores the product, adds it to the output block, or adds the
  bias row to the output block.  Each of the three stored values is read here at an index (p, q), and the contracted
  axis of 4096 terms is cut into its 8 runs of 512.
-/
import proofs.«159385_j44349832298616_2_alg».proof.Proof.Gen.KernelIdeal.Skeleton
import Idealize.ShloMosaic.Lib.ValueIdx
import Idealize.ShloMosaic.PureOps.Ideal.Laws
import Idealize.ShloMosaic.Lib.Pipeline.Value
import Idealize.ShloMosaic.Lib.ValueLayout
import proofs.«159385_j44349832298616_2_alg».proof.Proof.LibMatmulSumT
import proofs.«159385_j44349832298616_2_alg».proof.Proof.LibSumTiles

noncomputable section

open scoped BigOperators

namespace Cert.BinLinear.Pay

open Cert.KernelIdeal Cert.KernelIdeal.Gen Idealize.ShloMosaic Idealize.ShloMosaic.ValueIdx

/-! ## The two literals -/

/-- The f32 pattern 0x3F800000 is one. -/
theorem lit_one : Ideal.ofBits .f32 0x3F800000#32 = 1 := by
  rw [show (1 : EReal) = ((1 : ℝ) : EReal) by norm_cast]
  simp [Ideal.ofBits, Ideal.ieee, -EReal.coe_mul]; norm_num

/-- The f32 pattern 0xBF800000 is minus one. -/
theorem lit_neg_one : Ideal.ofBits .f32 0xBF800000#32 = -1 := by
  have h : Ideal.ofBits .f32 0xBF800000#32 = ((-(1 : ℝ)) : EReal) := by
    simp [Ideal.ofBits, Ideal.ieee, -EReal.coe_mul, -EReal.coe_neg]; norm_num
  rw [h, EReal.coe_one]

/-! ## The sign, element by element -/

/-- A selection on the bit of a decided proposition is the conditional on the proposition. -/
theorem select_decide {α : Type} (p : Prop) [Decidable p] (a b : α) :
    Scalar.select (BitVec.ofBool (decide p)) a b = if p then a else b := by
  by_cases h : p <;> simp [Scalar.select, h]

/-- The kernel's sign of one weight entry — where the magnitude max w (-w) is positive, minus one below zero and one
    otherwise; elsewhere, which is only at zero, the entry itself — is the order sign. -/
theorem ksign_eq (w : EReal) :
    Scalar.select (Ideal.cmp .ogt (max w (-w)) (Ideal.ofBits .f32 0x00000000#32))
      (Scalar.select (Ideal.cmp .olt w (Ideal.ofBits .f32 0x00000000#32))
        (Ideal.ofBits .f32 0xBF800000#32) (Ideal.ofBits .f32 0x3F800000#32)) w = Ideal.sign w := by
  rw [Ideal.ofBits_zero_f32, lit_one, lit_neg_one]
  show Scalar.select (BitVec.ofBool (decide ((0 : EReal) < max w (-w))))
    (Scalar.select (BitVec.ofBool (decide (w < 0))) (-1) 1) w = Ideal.sign w
  rw [select_decide, select_decide]
  induction w using EReal.rec with
  | bot =>
    -- the magnitude of the lower infinity is the upper one, and the lower infinity is below zero
    rw [if_pos (by simp), if_pos (by simp), Ideal.sign_bot]
  | top =>
    rw [if_pos (by simp), if_neg (by simp), Ideal.sign_top]
  | coe r =>
    rw [Ideal.sign_coe]
    rcases lt_trichotomy r 0 with h | h | h
    · -- a negative real: its magnitude -r is positive
      have hm : (0 : EReal) < max (r : EReal) (-(r : EReal)) :=
        lt_max_of_lt_right (by rw [← EReal.coe_neg]; exact_mod_cast neg_pos.mpr h)
      rw [if_pos hm, if_pos (by exact_mod_cast h), sign_neg h]
      simp
    · -- zero: the magnitude is zero, the entry is kept, and the sign of zero is zero
      subst h
      simp
    · -- a positive real: it is its own magnitude
      have hm : (0 : EReal) < max (r : EReal) (-(r : EReal)) :=
        lt_max_of_lt_left (by exact_mod_cast h)
      rw [if_pos hm, if_neg (by exact_mod_cast not_lt.mpr h.le), sign_pos h]
      simp

/-! ## The three stored values at an index -/

/-- The product block at (p, q): the input row p against the signs of the weight row q, over the 512 columns of the
    step.  The product into the zero block is the sum of products over the shared axis; a narrowing of format and a
    cast to the same shape change nothing; each right factor is the kernel's sign of a weight entry. -/
theorem pay1_apply (x0 : Vec Ideal S2048x512 .f32) (w0 : Vec Ideal S1024x512 .f32) (p : Fin 2048) (q : Fin 1024) :
    k0_pay1 (F := Ideal) x0 w0 (ix2 p q) = ∑ r : Fin 512, x0 (ix2 p r) * Ideal.sign (w0 (ix2 q r)) := by
  unfold k0_pay1
  refine (Cert.LibMatmulSumT.matmul_zero_apply (M := 2048) (K := 512) (N := 1024)
    dot_S2048x512_S1024x512_S2048x1024_1_1_0_0_n_n rfl rfl rfl rfl rfl rfl none _ _ (ix2 p q)).trans ?_
  refine Finset.sum_congr rfl fun r _ => ?_
  rw [shapeCast_self]
  exact congrArg (fun t => x0 (ix2 p r) * t) (ksign_eq (w0 (ix2 q r)))

/-- The accumulating step's stored value at (p, q): the output block's entry plus the product block's. -/
theorem pay2_apply (x0 : Vec Ideal S2048x512 .f32) (w0 : Vec Ideal S1024x512 .f32) (o : Vec Ideal S2048x1024 .f32)
    (p : Fin 2048) (q : Fin 1024) :
    k0_pay2 (F := Ideal) x0 w0 o (ix2 p q)
      = o (ix2 p q) + ∑ r : Fin 512, x0 (ix2 p r) * Ideal.sign (w0 (ix2 q r)) := by
  unfold k0_pay2
  rw [shapeCast_self]
  exact congrArg (fun t => o (ix2 p q) + t) (pay1_apply x0 w0 p q)

/-- The last step's stored value at (p, q): the output block's entry plus the bias row's entry q; the one bias row is
    repeated down the 2048 rows. -/
theorem pay3_apply (o : Vec Ideal S2048x1024 .f32) (b : Vec Ideal S1x1024 .f32) (p : Fin 2048) (q : Fin 1024) :
    k0_pay3 (F := Ideal) o b (ix2 p q) = o (ix2 p q) + b (ix2 (0 : Fin 1) q) := by
  unfold k0_pay3
  rw [shapeCast_self, shapeCast_self, shapeCast_self]
  exact congrArg (fun t => o (ix2 p q) + t)
    (broadcastTo_1b_ab_apply (a := 2048) (b := 1024) b broadcasts_S1x1024_S2048x1024 p q)

/-! ## The contracted axis in runs -/

/-- The 4096 terms of the contracted axis are the 8 runs of 512 consecutive terms, one run per step of the last grid
    axis. -/
theorem sum_runs (f : Fin 4096 → EReal) :
    ∑ d : Fin 4096, f d = ∑ k : Fin 8, ∑ r : Fin 512, f ⟨k.val * 512 + r.val, by omega⟩ :=
  Cert.LibSumTiles.sum_tiles 8 512 f

end Cert.BinLinear.Pay

end
-- ==== Proof.KI.Accum.lean ====
/-
  The accumulation invariant of the output block.

  Along a run of eight consecutive grid points — one output block, the contracted axis in eight runs of 512 — the
  block is first set to the product block of run 0, then each later point adds its run's product block, and the last
  point adds the bias row after that.  So after the point at position k the block holds, entry by entry, the running
  sum of the runs 0, ..., k, with the bias entry once k = 7.  The proof is by induction along the points: the block
  before a point that is not first in its run belongs to the same rows and columns and holds one run less.
-/
import proofs.«159385_j44349832298616_2_alg».proof.Proof.KI.Pieces
import proofs.«159385_j44349832298616_2_alg».proof.Proof.KI.AccumDef
import proofs.«159385_j44349832298616_2_alg».proof.Proof.Payload

set_option maxRecDepth 16384

noncomputable section

open scoped BigOperators

namespace Cert.BinLinear.KI

open Cert.KernelIdeal Cert.KernelIdeal.Gen Idealize.ShloMosaic Idealize.ShloMosaic.TcCoe Idealize.ShloMosaic.ValueIdx
open Idealize.SL.Sem
open Cert.BinLinear.Pay

/-! ## The accumulation, abstractly

The output block is an accumulator along the contracted axis.  Stated over any family of blocks that is the product
block at the first position of a run of eight points, the block before plus the product block at a later position,
and that plus the bias row at the last position: after the point at position k of its run the block holds, at (p, q),
the running sum of the runs 0, ..., k of the row a·2048 + p of X against the signs of the row b·1024 + q of W, plus
the bias entry at the last position. -/

/-- One run's contribution at (p, q): the 512 products of run k' of the row against the signed weight row. -/
def runTerm (X W : Vec Ideal S4096x4096 .f32) (a : Fin 2) (b : Fin 4) (p : Fin 2048) (q : Fin 1024) (k' : Fin 8) : EReal :=
  ∑ r : Fin 512,
    X (ix2 (⟨a.val * 2048 + p.val, by have := a.isLt; have := p.isLt; omega⟩ : Fin 4096)
        (⟨k'.val * 512 + r.val, by have := k'.isLt; have := r.isLt; omega⟩ : Fin 4096))
      * Ideal.sign (W (ix2 (⟨b.val * 1024 + q.val, by have := b.isLt; have := q.isLt; omega⟩ : Fin 4096)
        (⟨k'.val * 512 + r.val, by have := k'.isLt; have := r.isLt; omega⟩ : Fin 4096)))

/-- The bias entry of column b·1024 + q. -/
def biasAt (B : Vec Ideal S1x4096 .f32) (b : Fin 4) (q : Fin 1024) : EReal :=
  B (ix2 (0 : Fin 1) (⟨b.val * 1024 + q.val, by have := b.isLt; have := q.isLt; omega⟩ : Fin 4096))

section Core

variable {N : ℕ} (O : (n : ℕ) → n < N → Vec Ideal S2048x1024 .f32)
  (x0 : Fin N → Vec Ideal S2048x512 .f32) (x1 : Fin N → Vec Ideal S1024x512 .f32) (x2 : Fin N → Vec Ideal S1x1024 .f32)
  (a : Fin N → Fin 2) (b : Fin N → Fin 4) (k : Fin N → ℕ)
  (X W : Vec Ideal S4096x4096 .f32) (B : Vec Ideal S1x4096 .f32)

/-- A run's contribution read through the blocks of a point at that run. -/
theorem term_of_blocks
    (hx0 : ∀ (t : Fin N) (p : Fin 2048) (r : Fin 512) (h1 : (a t).val * 2048 + p.val < 4096) (h2 : k t * 512 + r.val < 4096),
      x0 t (ix2 p r) = X (ix2 (⟨(a t).val * 2048 + p.val, h1⟩ : Fin 4096) (⟨k t * 512 + r.val, h2⟩ : Fin 4096)))
    (hx1 : ∀ (t : Fin N) (q : Fin 1024) (r : Fin 512) (h1 : (b t).val * 1024 + q.val < 4096) (h2 : k t * 512 + r.val < 4096),
      x1 t (ix2 q r) = W (ix2 (⟨(b t).val * 1024 + q.val, h1⟩ : Fin 4096) (⟨k t * 512 + r.val, h2⟩ : Fin 4096)))
    (t : Fin N) (p : Fin 2048) (q : Fin 1024) (k' : Fin 8) (hk' : k'.val = k t) :
    ∑ r : Fin 512, x0 t (ix2 p r) * Ideal.sign (x1 t (ix2 q r)) = runTerm X W (a t) (b t) p q k' := by
  unfold runTerm
  refine Finset.sum_congr rfl fun r _ => ?_
  have h2 : k t * 512 + r.val < 4096 := by have := k'.isLt; have := r.isLt; omega
  have ek : (⟨k t * 512 + r.val, h2⟩ : Fin 4096) = ⟨k'.val * 512 + r.val, by have := k'.isLt; have := r.isLt; omega⟩ :=
    Fin.ext (by show k t * 512 + r.val = k'.val * 512 + r.val; omega)
  rw [hx0 t p r (by have := (a t).isLt; have := p.isLt; omega) h2,
    hx1 t q r (by have := (b t).isLt; have := q.isLt; omega) h2, ek]

/-- The accumulation invariant, entry by entry: after the point n the block holds the running sum of its run up to
    the point's position, plus the bias entry at the last position. -/
theorem accum_core
    (hA : ∀ t : Fin N, t.val % 8 = 0 → O t.val t.isLt = k0_pay1 (F := Ideal) (x0 t) (x1 t))
    (hB : ∀ t : Fin N, ¬t.val % 8 = 0 → ¬t.val % 8 = 7 →
      O t.val t.isLt = k0_pay2 (F := Ideal) (x0 t) (x1 t) (O (t.val - 1) (Nat.lt_of_le_of_lt (Nat.sub_le _ _) t.isLt)))
    (hC : ∀ t : Fin N, t.val % 8 = 7 →
      O t.val t.isLt = k0_pay3 (F := Ideal)
        (k0_pay2 (F := Ideal) (x0 t) (x1 t) (O (t.val - 1) (Nat.lt_of_le_of_lt (Nat.sub_le _ _) t.isLt))) (x2 t))
    (hk : ∀ t : Fin N, k t = t.val % 8)
    (hpa : ∀ (t : Fin N), ¬t.val % 8 = 0 → a ⟨t.val - 1, Nat.lt_of_le_of_lt (Nat.sub_le _ _) t.isLt⟩ = a t)
    (hpb : ∀ (t : Fin N), ¬t.val % 8 = 0 → b ⟨t.val - 1, Nat.lt_of_le_of_lt (Nat.sub_le _ _) t.isLt⟩ = b t)
    (hx0 : ∀ (t : Fin N) (p : Fin 2048) (r : Fin 512) (h1 : (a t).val * 2048 + p.val < 4096) (h2 : k t * 512 + r.val < 4096),
      x0 t (ix2 p r) = X (ix2 (⟨(a t).val * 2048 + p.val, h1⟩ : Fin 4096) (⟨k t * 512 + r.val, h2⟩ : Fin 4096)))
    (hx1 : ∀ (t : Fin N) (q : Fin 1024) (r : Fin 512) (h1 : (b t).val * 1024 + q.val < 4096) (h2 : k t * 512 + r.val < 4096),
      x1 t (ix2 q r) = W (ix2 (⟨(b t).val * 1024 + q.val, h1⟩ : Fin 4096) (⟨k t * 512 + r.val, h2⟩ : Fin 4096)))
    (hx2 : ∀ (t : Fin N) (q : Fin 1024), x2 t (ix2 (0 : Fin 1) q) = biasAt B (b t) q) :
    ∀ (n : ℕ) (hn : n < N) (p : Fin 2048) (q : Fin 1024),
      O n hn (ix2 p q) = runSum (runTerm X W (a ⟨n, hn⟩) (b ⟨n, hn⟩) p q) (k ⟨n, hn⟩)
        + (if k ⟨n, hn⟩ = 7 then biasAt B (b ⟨n, hn⟩) q else 0) := by
  intro n
  induction n using Nat.strong_induction_on with
  | _ n ih =>
    intro hn p q
    have hkn : k ⟨n, hn⟩ = n % 8 := hk ⟨n, hn⟩
    by_cases h0 : n % 8 = 0
    · -- the first position: the product block alone, which is the run 0
      have e : O n hn = k0_pay1 (F := Ideal) (x0 ⟨n, hn⟩) (x1 ⟨n, hn⟩) := hA ⟨n, hn⟩ h0
      have hk0 : k ⟨n, hn⟩ = 0 := hkn.trans h0
      rw [e, pay1_apply, hk0, runSum_zero, if_neg (by decide), add_zero]
      exact term_of_blocks x0 x1 a b k X W hx0 hx1 ⟨n, hn⟩ p q 0 hk0.symm
    · -- a later position j + 1: the block before holds the runs 0, ..., j of the same rows
      have hn' : n - 1 < N := Nat.lt_of_le_of_lt (Nat.sub_le _ _) hn
      obtain ⟨j, hj⟩ : ∃ j, k ⟨n, hn⟩ = j + 1 := ⟨k ⟨n, hn⟩ - 1, by omega⟩
      have hj8 : j + 1 < 8 := by omega
      have hkp : k ⟨n - 1, hn'⟩ = j := by rw [hk ⟨n - 1, hn'⟩]; show (n - 1) % 8 = j; omega
      have hprev : O (n - 1) hn' (ix2 p q) = runSum (runTerm X W (a ⟨n, hn⟩) (b ⟨n, hn⟩) p q) j := by
        rw [ih (n - 1) (by omega) hn' p q, hkp, if_neg (by omega), add_zero, hpa ⟨n, hn⟩ h0, hpb ⟨n, hn⟩ h0]
      have hterm : ∑ r : Fin 512, x0 ⟨n, hn⟩ (ix2 p r) * Ideal.sign (x1 ⟨n, hn⟩ (ix2 q r))
          = runTerm X W (a ⟨n, hn⟩) (b ⟨n, hn⟩) p q ⟨j + 1, hj8⟩ :=
        term_of_blocks x0 x1 a b k X W hx0 hx1 ⟨n, hn⟩ p q ⟨j + 1, hj8⟩ hj.symm
      rw [hj, runSum_succ _ j hj8, ← hterm, ← hprev]
      by_cases h7 : n % 8 = 7
      · -- the last position: the bias entry is added after the product block
        have e : O n hn = k0_pay3 (F := Ideal) (k0_pay2 (F := Ideal) (x0 ⟨n, hn⟩) (x1 ⟨n, hn⟩) (O (n - 1) hn')) (x2 ⟨n, hn⟩) :=
          hC ⟨n, hn⟩ h7
        rw [e, pay3_apply, pay2_apply, hx2, if_pos (by omega)]
      · have e : O n hn = k0_pay2 (F := Ideal) (x0 ⟨n, hn⟩) (x1 ⟨n, hn⟩) (O (n - 1) hn') := hB ⟨n, hn⟩ h0 h7
        rw [e, pay2_apply, if_neg (by omega), add_zero]

end Core

/-! ## The invariant for the program's blocks -/

/-- After every grid point the output block is the running sum of its run, with the bias at the last position. -/
theorem outsAt_eq (m : (ℓ : Loc nD τ sig) → Buf (Elt Ideal) ℓ) (c : Dev nD) (t : Fin cfg0.N) :
    outsAt (F := Ideal) m c t.val t.isLt = blockAfter (V m c main_v0) (V m c main_arg1) (V m c main_v1) t := by
  funext y
  rw [eq_ix2 y]
  exact accum_core (N := cfg0.N) (fun n hn => outsAt (F := Ideal) m c n hn)
    (fun t => iblk m c 0 t) (fun t => iblk m c 1 t) (fun t => iblk m c 2 t)
    (fun t => ⟨ci t, ci_lt t⟩) (fun t => ⟨cj t, cj_lt t⟩) (fun t => ck t)
    (V m c main_v0) (V m c main_arg1) (V m c main_v1)
    (fun t h0 => (outsAt_A m c t h0).trans (outA_eq c _ _ _ _ _ _ _ _ _ _ _ _ _ _ _))
    (fun t h0 h7 => (outsAt_B m c t h0 h7).trans (outB_eq c _ _ _ _ _ _ _ _ _ _ _ _ _ _ _ _))
    (fun t h7 => (outsAt_C m c t h7).trans (outC_eq c _ _ _ _ _ _ _ _ _ _ _ _ _ _ _ _))
    ck_eq
    (fun t h0 => Fin.ext (prev_coords t h0).1)
    (fun t h0 => Fin.ext (prev_coords t h0).2.1)
    (fun t p r _ _ => iblk0_apply m c t p r)
    (fun t q r _ _ => iblk1_apply m c t q r)
    (fun t q => iblk2_apply m c t q)
    t.val t.isLt (y 0) (y 1)

end Cert.BinLinear.KI

end
-- ==== Proof.Spec.lean ====
/-
  The function both programs compute, index by index, on the extended reals: a linear layer whose weight is
  replaced by its sign,  out[b, s, o] = (Σ_d x[b, s, d] · sign(w[o, d])) + bias[o].
  The sum runs over the whole contracted axis (4096 terms) in one piece; `sign` is the order sign (−1, 0, 1,
  the infinities going to ∓1).
-/
import Idealize.ShloMosaic.PureOps.Ideal
import Idealize.ShloMosaic.Lib.ValueIdx

noncomputable section

open scoped BigOperators

namespace Cert.BinLinear

open Idealize.ShloMosaic Idealize.ShloMosaic.ValueIdx

/-- The binarized linear layer at one output index `(b, s, o)`: the row `x[b, s, ·]` against the signs of the
    weight row `w[o, ·]`, plus `bias[o]`. -/
def result (x : FVec Ideal ⟨3, ![2, 2048, 4096]⟩ .f32) (w : FVec Ideal ⟨2, ![4096, 4096]⟩ .f32)
    (bias : FVec Ideal ⟨1, ![4096]⟩ .f32) : FVec Ideal ⟨3, ![2, 2048, 4096]⟩ .f32 :=
  fun i => (∑ d : Fin 4096, x (ix3 (i 0) (i 1) d) * Ideal.sign (w (ix2 (i 2) d))) + bias (ix1 (i 2))

end Cert.BinLinear

end
-- ==== Proof.KI.Final.lean ====
/-
  The idealized kernel's run, read to the end: its result array is the specification's function of the argument
  arrays.
  After the last position of a run of eight points the output block holds the full contraction — the running sum over
  all eight runs of 512 is the sum over the whole axis, one re-grouping of a finite sum — plus the bias row. Each such
  block is written back to its place, the eight blocks (2 row blocks by 4 column blocks) tile the output
  array, so the array ends at one function of the arrays the region found; those are the flattened activations, the
  weight and the one-row bias, and the reshape after the region reads the array back as [batch, row, column].
-/
import proofs.«159385_j44349832298616_2_alg».proof.Proof.KI.Accum
import proofs.«159385_j44349832298616_2_alg».proof.Proof.Spec

set_option maxRecDepth 16384

noncomputable section

open scoped BigOperators

namespace Cert.BinLinear.KI

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The region's result array, row by column: the row of the flattened activations against the signs of the
    weight's row, plus the bias entry of the column. -/
def res2 (X W : Vec Ideal S4096x4096 .f32) (B : Vec Ideal S1x4096 .f32) : Vec Ideal S4096x4096 .f32 := fun i =>
  (∑ d : Fin 4096, X (ix2 (i 0) d) * Ideal.sign (W (ix2 (i 1) d))) + B (ix2 (0 : Fin 1) (i 1))

/-- The sum over the whole contracted axis is the sum of its eight consecutive runs of 512. -/
theorem regroup (X W : Vec Ideal S4096x4096 .f32) (row col : Fin 4096) :
    ∑ k' : Fin 8, ∑ r : Fin 512,
        X (ix2 row (⟨k'.val * 512 + r.val, by have := k'.isLt; have := r.isLt; omega⟩ : Fin 4096))
          * Ideal.sign (W (ix2 col (⟨k'.val * 512 + r.val, by have := k'.isLt; have := r.isLt; omega⟩ : Fin 4096)))
      = ∑ d : Fin 4096, X (ix2 row d) * Ideal.sign (W (ix2 col d)) :=
  (Cert.BinLinear.Pay.sum_runs (fun d : Fin 4096 => X (ix2 row d) * Ideal.sign (W (ix2 col d)))).symm

/-- What a point at the last position writes back is its block of `res2`. -/
theorem flushed3_eq (c : Dev nD) (t : Fin cfg0.N) (hf : (cfg0.win 3).flush t = true) :
    (dats m 0 c).flushed 3 t
      = ((cfg0.win 3).blk t).view.read (Elt Ideal) (res2 (V m c main_v0) (V m c main_arg1) (V m c main_v1)) := by
  have hk : ck t = 7 := (out_flush t).1 hf
  show (cfg0.win 3).cut (grid0.coords t) ((dats m 0 c).after 3 t) = _
  rw [after_3, outsAt_eq]
  funext y
  obtain ⟨p, q, rfl⟩ : ∃ (p : Fin 2048) (q : Fin 1024), y = ix2 p q := ⟨y 0, y 1, eq_ix2 y⟩
  rw [View.read_apply]
  show blockAfter (V m c main_v0) (V m c main_arg1) (V m c main_v1) t (ix2 p q)
    = res2 (V m c main_v0) (V m c main_arg1) (V m c main_v1) ((((cfg0.win 3).blk t).view.emb : S2048x1024.Idx → S4096x4096.Idx) (ix2 p q))
  rw [out_blk_apply]
  unfold blockAfter res2
  rw [hk, if_pos rfl, runSum_last]
  dsimp only
  refine congrArg₂ (· + ·) ?_ ?_
  · exact regroup (V m c main_v0) (V m c main_arg1) _ _
  · rfl

/-- The output array after the run. -/
theorem final3 (c : Dev nD) :
    (dats m 0 c).arrAt 3 cfg0.N = res2 (V m c main_v0) (V m c main_arg1) (V m c main_v1) :=
  (dats m 0 c).arrAt_eq_of_cover 3 _ (fun t hf => flushed3_eq m c t hf) out_cover

/-- The program's result, after the reshape that follows the region, is the specification's function of the three
    argument arrays as launched. -/
theorem result_eq (c : Dev nD) :
    (Pipeline.afterTail₀ cfgs (dats m) 0 (V0 m) [hostOps1] c main_v3 : S2x2048x4096.Idx → EReal)
      = Cert.BinLinear.result (m ((c : Thread nD τ).loc main_arg0)) (m ((c : Thread nD τ).loc main_arg1))
          (m ((c : Thread nD τ).loc main_arg2)) := by
  funext i
  obtain ⟨b, s, o, rfl⟩ : ∃ (b : Fin 2) (s : Fin 2048) (o : Fin 4096), i = ix3 b s o := ⟨i 0, i 1, i 2, eq_ix3 i⟩
  rw [tail_v3_apply, final3]
  unfold res2 Cert.BinLinear.result
  have hb : (b.val * 2048 + s.val) / 2048 = b.val := by have := s.isLt; omega
  have hs : (b.val * 2048 + s.val) % 2048 = s.val := by have := s.isLt; omega
  refine congrArg₂ (· + ·) (Finset.sum_congr rfl fun d _ => congrArg₂ (· * ·) ?_ ?_) ?_
  · refine (V_v0_apply m c _ d).trans (congrArg _ ?_)
    funext a
    match a with
    | ⟨0, _⟩ => exact Fin.ext hb
    | ⟨1, _⟩ => exact Fin.ext hs
    | ⟨2, _⟩ => rfl
  · exact congrArg Ideal.sign (congrFun (V_main_arg1 m c) _)
  · exact V_v1_apply m c o

/-- The kernel program, at the exact instance, from any memory with zero counters: every weakly fair execution
    terminates, the result array ends at the specification's function of the argument arrays, and the arguments end
    unchanged. -/
theorem run : θ_run defs (onTc (τ := τ) (main (F := Ideal))) ⟨m, fun _ => 0, ρ⟩ (fun r => ∀ c : Dev nD,
      r.2.mem ((c.tc : Thread nD τ).loc main_v3)
        = Cert.BinLinear.result (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (result_eq m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c)⟩)
    (run_main (F := Ideal) m ρ)

end Cert.BinLinear.KI

end
-- ==== Proof.RefSide.lean ====
/-
  The reference program read back: its run ends with the result array at the specification's function of the
  argument arrays.
-/
import proofs.«159385_j44349832298616_2_alg».proof.Defs
import proofs.«159385_j44349832298616_2_alg».proof.Proof.Gen.ReferenceIdeal.Run
import proofs.«159385_j44349832298616_2_alg».proof.Proof.Gen.ReferenceIdeal.Read
import proofs.«159385_j44349832298616_2_alg».proof.Proof.Gen.Pre_finite_inputs
import proofs.«159385_j44349832298616_2_alg».proof.Proof.Spec

noncomputable section

open scoped BigOperators

namespace Cert.BinLinear.Ref

open Idealize.ShloMosaic Idealize.ShloMosaic.TcCoe Idealize.SL.Sem Idealize.ShloMosaic.ValueIdx

/-- The left operand of the contraction is read at `(b, s, d)`. -/
theorem lidx_eq (i : Cert.ReferenceIdeal.S2x2048x4096.Idx) (k : Fin 4096) :
    Cert.ReferenceIdeal.Read.lidx_main_v1 i k = ix3 (i 0) (i 1) k :=
  funext fun a => Fin.ext (by
    match a with
    | ⟨0, _⟩ => rfl
    | ⟨1, _⟩ => rfl
    | ⟨2, _⟩ => rfl)

/-- The right operand of the contraction is read at `(o, d)`. -/
theorem ridx_eq (i : Cert.ReferenceIdeal.S2x2048x4096.Idx) (k : Fin 4096) :
    Cert.ReferenceIdeal.Read.ridx_main_v1 i k = ix2 (i 2) k :=
  funext fun a => Fin.ext (by
    match a with
    | ⟨0, _⟩ => rfl
    | ⟨1, _⟩ => rfl)

/-- The two broadcasts of the bias read it at `o`. -/
theorem bidx_eq (i : Cert.ReferenceIdeal.S2x2048x4096.Idx) :
    Cert.ReferenceIdeal.Read.idx_main_v2 (Cert.ReferenceIdeal.Read.idx_main_v3 i) = ix1 (i 2) :=
  funext fun a => Fin.ext (by
    match a with
    | ⟨0, _⟩ => rfl)

/-- The reference's result term is the specification's function: at `(b, s, o)` the contraction over `d` of
    `x[b, s, d]` with the sign of `w[o, d]`, plus `bias[o]`. -/
theorem ref_eq (x : (⟨Cert.ReferenceIdeal.S2x2048x4096, .f32⟩ : BufTy).Contents (Elt Ideal))
    (w : (⟨Cert.ReferenceIdeal.S4096x4096, .f32⟩ : BufTy).Contents (Elt Ideal))
    (b : (⟨Cert.ReferenceIdeal.S4096, .f32⟩ : BufTy).Contents (Elt Ideal)) :
    Cert.ReferenceIdeal.Read.val_main_v4 (F := Ideal) x w b = Cert.BinLinear.result x w b := by
  funext i
  rw [Cert.ReferenceIdeal.Read.val_main_v4_apply, Cert.ReferenceIdeal.Read.val_main_v1_apply,
    Cert.ReferenceIdeal.Read.val_main_v3_apply, Cert.ReferenceIdeal.Read.val_main_v2_apply, bidx_eq, Ideal.addf_def]
  unfold Cert.BinLinear.result
  refine congrArg (· + b (ix1 (i 2))) ?_
  refine Finset.sum_congr rfl fun k _ => ?_
  rw [Cert.ReferenceIdeal.Read.val_main_v0_apply, lidx_eq, ridx_eq, Ideal.hostUnary_sign_def]
  rfl

/-- Every run of the reference ends with the result array at the specification's function of the argument arrays,
    the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v4)
          = Cert.BinLinear.result (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono
    (fun _ h c => ⟨(h c).1.trans ((Cert.ReferenceIdeal.Read.val_main_v4_eq (F := Ideal) _ _ _).trans (ref_eq _ _ _)), (h c).2⟩)
    (Cert.ReferenceIdeal.Value.run (F := Ideal) m ρ)

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the sign read off the bit pattern against the sign read off the value,
    at the weight tile's shape and format. -/
theorem preserves : Cert.preserves_Kernel_KernelIdeal :=
  IdealRules.sign_bit.statement Cert.KernelIdeal.S1024x512 .f32

end Cert.BinLinear.Ref

end
-- ==== Proof.lean ====
/-
  A linear layer whose weight is replaced by its sign:  out[b, s, o] = Σ_d x[b, s, d] · sign(w[o, d]) + bias[o].

  The kernel flattens the activations to 4096 rows, tiles the product on a grid of 2 × 4 × 8 points — row blocks of
  2048, column blocks of 1024, and the contracted axis in eight runs of 512 — and keeps each output block resident
  while the eight partial products of its run are added into it; the bias row is added after the last one, and the
  block is written back once. The reference contracts the whole axis at once and adds the bias.

  On the extended reals the two are the same function: both read `sign` as the order sign (−1, 0, 1; the
  infinities to ∓1), a change of float format is the identity, and a sum over 4096 terms is the sum of its eight
  consecutive runs of 512 — a re-grouping of a finite sum in a commutative monoid, which needs no finiteness of the
  entries. So the proof never opens the precondition.

  The three frames: each kernel program runs its body at every grid point in one of three cases (first, middle and
  last position along the contracted axis), the output block carried from point to point; the reference is a
  straight line of host operations. The idealization replaced one line (1.0 with the sign bit of the weight) by a
  comparison with zero; its rule's statement is the `preserves` conjunct.
-/
import proofs.«159385_j44349832298616_2_alg».proof.Defs
import proofs.«159385_j44349832298616_2_alg».proof.Proof.Gen.Kernel
import proofs.«159385_j44349832298616_2_alg».proof.Proof.Gen.KernelIdeal
import proofs.«159385_j44349832298616_2_alg».proof.Proof.Gen.ReferenceIdeal
import proofs.«159385_j44349832298616_2_alg».proof.Proof.Gen.Pre_finite_inputs
import proofs.«159385_j44349832298616_2_alg».proof.Proof.K.Body
import proofs.«159385_j44349832298616_2_alg».proof.Proof.KI.Final
import proofs.«159385_j44349832298616_2_alg».proof.Proof.RefSide

noncomputable section

namespace Cert.Proof

open Idealize.ShloMosaic Idealize.SL.Sem

/-- The word-level kernel runs to the end and leaves its arguments unchanged. -/
theorem frame_k : Cert.frame_Kernel := fun m ρ _ => Cert.BinLinear.K.frame (F := Bits) m ρ

/-- So does the idealized kernel. -/
theorem frame_ki : Cert.frame_KernelIdeal := fun m ρ _ => Cert.BinLinear.KI.frame (F := Ideal) m ρ

/-- Both idealized programs end with the result array at the specification's function of the arguments, which agree. -/
theorem algebraic : Cert.algebraic_KernelIdeal_ReferenceIdeal := by
  intro m ρ m' ρ' _ hagree
  refine ⟨fun c => Cert.BinLinear.result (m ((c.tc : Thread _ _).loc Cert.KernelIdeal.main_arg0))
      (m ((c.tc : Thread _ _).loc Cert.KernelIdeal.main_arg1)) (m ((c.tc : Thread _ _).loc Cert.KernelIdeal.main_arg2)),
    Cert.BinLinear.KI.run m ρ, ?_⟩
  refine (θ_run Cert.ReferenceIdeal.defs _ _).mono (fun _ h c => ⟨(h c).1.trans ?_, (h c).2⟩)
    (Cert.BinLinear.Ref.ref_run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, Cert.BinLinear.Ref.frame_ri, Cert.BinLinear.Ref.preserves, algebraic⟩

end Cert.Proof

end
